-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 10
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S10000x128, .f32⟩
  | .hbm, ⟨8, _⟩ => ⟨S1x128, .f32⟩
  | .hbm, ⟨9, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x128, .f32⟩
  | .local _ .vmem, ⟨8, _⟩ => ⟨S400x10000, .f32⟩
  | .local _ .vmem, ⟨9, _⟩ => ⟨S400x10000, .f32⟩
  | .local _ .vmem, ⟨10, _⟩ => ⟨S10000x128, .f32⟩
  | .local _ .vmem, ⟨11, _⟩ => ⟨S128x128, .f32⟩
  | .local _ .vmem, ⟨12, _⟩ => ⟨S1x128, .f32⟩
  | .local _ .vmem, ⟨13, _⟩ => ⟨S400x128, .f32⟩
  | .local _ .vmem, ⟨14, _⟩ => ⟨S400x128, .f32⟩
  | .local _ .vmem, ⟨15, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 36
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000, .f32⟩
  | .hbm, ⟨14, _⟩ => ⟨S10000x1, .f32⟩
  | .hbm, ⟨15, _⟩ => ⟨S10000x1, .f32⟩
  | .hbm, ⟨16, _⟩ => ⟨S_, .f32⟩
  | .hbm, ⟨17, _⟩ => ⟨S10000x1, .f32⟩
  | .hbm, ⟨18, _⟩ => ⟨S10000x1, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000, .f32⟩
  | .hbm, ⟨29, _⟩ => ⟨S10000x1, .f32⟩
  | .hbm, ⟨30, _⟩ => ⟨S10000x1, .f32⟩
  | .hbm, ⟨31, _⟩ => ⟨S_, .f32⟩
  | .hbm, ⟨32, _⟩ => ⟨S10000x1, .f32⟩
  | .hbm, ⟨33, _⟩ => ⟨S10000x1, .f32⟩
  | .hbm, ⟨34, _⟩ => ⟨S10000x128, .f32⟩
  | .hbm, ⟨35, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_call1_v2 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Kernel.Run0.lean ====
/-
  The body of layer 1's kernel, run once at the first grid point and once at a later one.

  At the first point the body multiplies the whole feature matrix by the weight matrix and keeps the
  product `z` in the scratch buffer; at every point it multiplies the point's 400 rows of the
  adjacency matrix by the scratch, adds the bias row, and divides each row by the larger of its
  Euclidean norm and the constant 1e-12, storing the 400 normalised rows.  Both runs leave the input
  buffers as they were; the first leaves the scratch at `z`, the later ones find it there and
  leave it untouched.
-/
import proofs.«160204_g83296595739027_cont_9to1c4b_134_2_alg».proof.Proof.Gen.Kernel.Launch
import proofs.«160204_g83296595739027_cont_9to1c4b_134_2_alg».proof.Proof.Gen.Kernel.Skeleton
import proofs.«160204_g83296595739027_cont_9to1c4b_134_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a whole-buffer access are all zero. -/
theorem zero_off0 : (![0, 0] : Fin 2 → Nat) = fun _ => 0 := by
  funext a; fin_cases a <;> rfl

/-- "This is the first grid point", as the body computes it from the grid coordinate. -/
abbrev first0 (i : grid0.Coords) : Prop :=
  (Scalar.cmpi .ne (Scalar.extui (Scalar.cmpi .eq (BitVec.ofNat 32 (i 0).val) 0#32)) 0#32) = 1#1

/-- It holds at point 0 and at no other of the 25 points. -/
theorem first0_iff : ∀ t : Fin cfg0.N, first0 (grid0.coords t) ↔ t.val = 0 :=
  (by decide +kernel : ∀ t : Fin grid0.N, first0 (grid0.coords t) ↔ t.val = 0)

/-- One whole-buffer store covers the output block. -/
theorem cover_out0 (p : Vec F S400x128 .f32) (y : S400x128.Idx) :
    ∃ pc ∈ ([⟨Rect.unit (s := S400x128) ![0, 0] S400x128.size inb_S400x128_S400x128_0_0, p⟩] : List (View.Piece (Elt F) S400x128 .f32)), y ∈ pc.1.set :=
  ⟨_, List.mem_singleton_self _, View.mem_set_unit_zero zero_off0 inb_S400x128_S400x128_0_0 y⟩

/-- One whole-buffer store covers the scratch. -/
theorem cover_scratch0 (p : Vec F S10000x128 .f32) (y : S10000x128.Idx) :
    ∃ pc ∈ ([⟨Rect.unit (s := S10000x128) ![0, 0] S10000x128.size inb_S10000x128_S10000x128_0_0, p⟩] : List (View.Piece (Elt F) S10000x128 .f32)), y ∈ pc.1.set :=
  ⟨_, List.mem_singleton_self _, View.mem_set_unit_zero zero_off0 inb_S10000x128_S10000x128_0_0 y⟩

set_option maxHeartbeats 1000000 in
/-- A later point: the scratch already holds `z`; the 400 rows `x1` of the adjacency matrix and the bias row
    `x4` give the normalised rows, and nothing else changes. -/
theorem run0_rest (c : Dev nD) (E : Set ℕ) (i : grid0.Coords) (hc : ¬ first0 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S400x128 .f32) (harg5 : arg5.IsWhole) (arg6 : Memref sig .tc .vmem S10000x128 .f32) (harg6 : arg6.IsWhole)
    (x1 : Vec F S400x10000 .f32) (x4 : Vec F S1x128 .f32) (z : Vec F S10000x128 .f32) (K : PUnit → sProp 𝕄) :
    iprop(owns (c : Thread nD τ) arg1 fullShare x1 ∗ owns (c : Thread nD τ) arg4 fullShare x4 ∗ (∃ d, owns (c : Thread nD τ) arg5 fullShare d)
        ∗ owns (c : Thread nD τ) arg6 fullShare z
        ∗ (iprop(owns (c : Thread nD τ) arg1 fullShare x1 ∗ owns (c : Thread nD τ) arg4 fullShare x4
            ∗ owns (c : Thread nD τ) arg5 fullShare (k0_pay2 x1 z x4) ∗ owns (c : Thread nD τ) arg6 fullShare z) -∗ K ⟨⟩))
      ⊢ wp frame (wpE (defs₀ (F := F)) Variants.none c none) E (cc0__layer_body i arg1 harg1 arg2 harg2 arg3 harg3 arg4 harg4 arg5 harg5 arg6 harg6) K := by
  simp only [cc0__layer_body_eq_skeleton]; unfold cc0__layer_body_skel
  unfold owns
  iintro ⟨⟨%f1, %hf1, H1⟩, ⟨%f4, %hf4, H4⟩, ⟨%d5, %f5, -, H5⟩, ⟨%f6, %hf6, H6⟩, Hk⟩
  obtain rfl := harg1.eq_unread hf1; obtain rfl := harg4.eq_unread hf4; obtain rfl := harg6.eq_unread hf6
  sl_exec (disch := first | exact hc)
  sl_step
  iapply Hk
  isplitl [H1]
  · iexists _; isplitr; · ipureintro; exact harg1.read_unread _
    iexact H1
  isplitl [H4]
  · iexists _; isplitr; · ipureintro; exact harg4.read_unread _
    iexact H4
  isplitl [H5]
  · iexists _; isplitr
    swap; · iexact H5
    ipureintro
    rw [View.read_writes_eq_canon _ _ _ (cover_out0 _), View.canon_unit_zero zero_off0]
    simp only [View.readAt_eq_ld, harg1.read_unread, harg4.read_unread, harg6.read_unread,
      View.ld_unit_zero (S := S400x10000) zero_off0, View.ld_unit_zero (S := S1x128) zero_off0,
      View.ld_unit_zero (S := S10000x128) zero_off0]
  iexists _; isplitr; · ipureintro; exact harg6.read_unread _
  iexact H6

set_option maxHeartbeats 4000000 in
/-- The first point: the scratch holds anything; the body stores the product of the feature matrix `x2` and the
    weight matrix `x3` into it, and then computes the first 400 normalised rows from it as at any point. -/
theorem run0_first (c : Dev nD) (E : Set ℕ) (i : grid0.Coords) (hc : first0 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S400x128 .f32) (harg5 : arg5.IsWhole) (arg6 : Memref sig .tc .vmem S10000x128 .f32) (harg6 : arg6.IsWhole)
    (x1 : Vec F S400x10000 .f32) (x2 : Vec F S10000x128 .f32) (x3 : Vec F S128x128 .f32) (x4 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (k0_pay2 x1 (k0_pay1 x2 x3) x4) ∗ owns (c : Thread nD τ) arg6 fullShare (k0_pay1 x2 x3)) -∗ K ⟨⟩))
      ⊢ wp frame (wpE (defs₀ (F := F)) Variants.none c none) E (cc0__layer_body i arg1 harg1 arg2 harg2 arg3 harg3 arg4 harg4 arg5 harg5 arg6 harg6) K := by
  simp only [cc0__layer_body_eq_skeleton]; unfold cc0__layer_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2; obtain rfl := harg3.eq_unread hf3; obtain rfl := harg4.eq_unread hf4
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover_out0 _), View.canon_unit_zero zero_off0]
    refine congr (congr (congrArg k0_pay2 ?_) ?_) ?_
    · rw [View.readAt_eq_ld, harg1.read_unread, View.ld_unit_zero (S := S400x10000) zero_off0]
    · sl_unfold_run_names
      refine (View.readCov_unit_zero (S := S10000x128) arg6.view zero_off0 inb_S10000x128_S10000x128_0_0 _).trans ?_
      refine congr (congrArg k0_pay1 ?_) ?_
      · rw [View.readAt_eq_ld, harg2.read_unread, View.ld_unit_zero (S := S10000x128) zero_off0]
      · rw [View.readAt_eq_ld, harg3.read_unread, View.ld_unit_zero (S := S128x128) zero_off0]
    · rw [View.readAt_eq_ld, harg4.read_unread, View.ld_unit_zero (S := S1x128) zero_off0]
  iexists _; isplitr
  swap; · iexact H6
  ipureintro
  sl_unfold_run_names
  rw [View.read_writes_eq_canon _ _ _ (cover_scratch0 _), View.canon_unit_zero zero_off0]
  refine congr (congrArg k0_pay1 ?_) ?_
  · rw [View.readAt_eq_ld, harg2.read_unread, View.ld_unit_zero (S := S10000x128) zero_off0]
  · rw [View.readAt_eq_ld, harg3.read_unread, View.ld_unit_zero (S := S128x128) zero_off0]

end Cert.Kernel.Hand

end
-- ==== Proof.Kernel.Region0.lean ====
/-
  Layer 1's kernel as one region of the program: what each of its 25 grid points finds and leaves.

  The region streams the adjacency matrix in 25 stripes of 400 rows (window 0), keeps the feature matrix,
  the weight matrix and the bias row in place (windows 1, 2, 3: one block each, the whole array), and writes
  400 rows of the result per point (window 4).  The scratch buffer is not staged by the pipeline: before the
  first point it holds anything; the first point stores the product of the feature and weight matrices
  there, and every later point finds that same product.  So the region's invariant after the first point is
  "the scratch holds that product", and point `t` leaves in the output block the 400 normalised rows
  computed from stripe `t`, the product and the bias row.
-/
import proofs.«160204_g83296595739027_cont_9to1c4b_134_2_alg».proof.Proof.Kernel.Run0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

-- the buffer contents of the core when the region is entered
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds its block at every point, fetched there or not. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current staging buffer holds its block at every point, fetched there or not. -/
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's current staging buffer holds its block at every point, fetched there or not. -/
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- The first grid point. -/
abbrev pt0_0 : Fin cfg0.N := ⟨0, by decide⟩

/-- The scratch operand, a whole buffer of the kernel's own. -/
abbrev scM0 : Memref sig .tc .vmem S10000x128 .f32 := Memref.whole cc0_scratch0

/-- What the scratch holds from the first point on: the feature matrix times the weight matrix. -/
def scr0 (c : Dev nD) : Vec F S10000x128 .f32 := k0_pay1 (blk0 V c 1 pt0_0) (blk0 V c 2 pt0_0)

/-- What point `t` leaves in the output block: the normalised rows of stripe `t`. -/
def rows0 (c : Dev nD) (t : Fin cfg0.N) : Vec F S400x128 .f32 := k0_pay2 (blk0 V c 0 t) (scr0 V c) (blk0 V c 3 t)

/-- The scoped buffers the region does not use (the other region's staging buffers and scratch), at anything. -/
abbrev others0 (c : Dev nD) : sProp 𝕄 :=
  Pipeline.scopedRestBut (Ix := Unit) (Name := ℕ) (U := UR sig nD τ) (Lvl := ℕ) (Val := Elt F) spec0 c [cc0_scratch0]

/-- The region's invariant before position `n`: before the first point the scratch holds anything; afterwards the product. -/
def inv0 (c : Dev nD) : ℕ → sProp 𝕄
  | 0 => Pipeline.ΦA spec0 c
  | _ + 1 => iprop(owns (c : Thread nD τ) scM0 fullShare (scr0 V c) ∗ others0 c ∗ ∃ r, prngReg c r)

theorem inv0_pos (c : Dev nD) (n : ℕ) (hn : n ≠ 0) :
    inv0 V c n = iprop(owns (c : Thread nD τ) scM0 fullShare (scr0 V c) ∗ others0 c ∗ ∃ r, prngReg c r) := by
  cases n with
  | zero => exact absurd rfl hn
  | succ n => rfl

/-- The scoped buffers no window stages are the scratch and the others. -/
theorem rest_split0 (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ others0 (F := F) c) := by
  rw [Pipeline.scopedRest_split_of_list spec0 c [cc0_scratch0] (by decide) (by decide)]
  simp only [scM0, owns_whole]
  rfl

/-- The invariant before the first point, opened: the scratch at anything, the others, the generator register. -/
theorem open0 (c : Dev nD) :
    (Pipeline.ΦA spec0 c : sProp 𝕄) ⊢ iprop((∃ d, owns (c : Thread nD τ) scM0 fullShare d) ∗ others0 (F := F) c ∗ ∃ r, prngReg c r) := by
  unfold Pipeline.ΦA; rw [rest_split0]
  iintro ⟨⟨HS, Hr⟩, Hg⟩
  isplitl [HS]; · iexact HS
  isplitl [Hr]; · iexact Hr
  iexact Hg

/-- And closed again, whatever the scratch holds. -/
theorem close0 (c : Dev nD) :
    iprop((∃ d, owns (c : Thread nD τ) scM0 fullShare d) ∗ others0 (F := F) c ∗ ∃ r, prngReg c r) ⊢ (Pipeline.ΦA spec0 c : sProp 𝕄) := by
  unfold Pipeline.ΦA; rw [rest_split0]
  iintro ⟨HS, Hr, Hg⟩
  isplitl [HS Hr]
  · isplitl [HS]; · iexact HS
    iexact Hr
  iexact Hg

/-- The proof data of the region on core `c`: the arrays as the region finds them; after the body each input's buffer
    at its block and the output's at the point's normalised rows; the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => rows0 V c t
  Φ t := inv0 V c t.val
  q _ := fullShare
  owed _ := 0

theorem arr0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = rows0 V c t := by dsimp only [dat0]

theorem before0_0 (c : Dev nD) (t : Fin cfg0.N) (d) : (dat0 V c).before 0 t d = blk0 V c 0 t :=
  found0_0 V (dat0 V c) (arr0 V c 0) (after0_0 V c) t d
theorem before0_1 (c : Dev nD) (t : Fin cfg0.N) (d) : (dat0 V c).before 1 t d = blk0 V c 1 t :=
  found0_1 V (dat0 V c) (arr0 V c 1) (after0_1 V c) t d
theorem before0_2 (c : Dev nD) (t : Fin cfg0.N) (d) : (dat0 V c).before 2 t d = blk0 V c 2 t :=
  found0_2 V (dat0 V c) (arr0 V c 2) (after0_2 V c) t d
theorem before0_3 (c : Dev nD) (t : Fin cfg0.N) (d) : (dat0 V c).before 3 t d = blk0 V c 3 t :=
  found0_3 V (dat0 V c) (arr0 V c 3) (after0_3 V c) t d

theorem inv0_start (c : Dev nD) (t : Fin cfg0.N) : (dat0 V c).Φ t.castSucc = inv0 V c t.val := by
  dsimp only [dat0]; simp only [Fin.coe_castSucc]

theorem inv0_end (c : Dev nD) (t : Fin cfg0.N) :
    (dat0 V c).Φ t.succ = iprop(owns (c : Thread nD τ) scM0 fullShare (scr0 V c) ∗ others0 c ∗ ∃ r, prngReg c r) := rfl

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
/-- The body at any point: the inputs' buffers hold their blocks; at the first point the scratch holds anything and
    is left at the product, at a later point it holds the product and is left alone; the output's buffer ends at the
    point's normalised rows; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, inv0_start, inv0_end]
  by_cases hz : t.val = 0
  · obtain rfl : t = pt0_0 := Fin.ext hz
    rw [show inv0 V c (pt0_0 : Fin cfg0.N).val = Pipeline.ΦA spec0 c from rfl]
    iintro ⟨HΦ, Ho, ⟨%d0, H0⟩, ⟨%d1, H1⟩, ⟨%d2, H2⟩, ⟨%d3, H3⟩, ⟨%d4, H4⟩⟩
    ihave HΦ' := (open0 (F := F) c) $$ HΦ
    icases HΦ' with ⟨HS, Hr, Hg⟩
    iapply (run0_first c Set.univ (grid0.coords pt0_0) ((first0_iff pt0_0).mpr rfl) _ _ _ _ _ _ _ _ _ _ _ _
      (blk0 V c 0 pt0_0) (blk0 V c 1 pt0_0) (blk0 V c 2 pt0_0) (blk0 V c 3 pt0_0) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [inv0_pos V c _ hz]
    iintro ⟨⟨HS, Hr, Hg⟩, Ho, ⟨%d0, H0⟩, ⟨%d1, H1⟩, ⟨%d2, H2⟩, ⟨%d3, H3⟩, ⟨%d4, H4⟩⟩
    iapply (run0_rest c Set.univ (grid0.coords t) (fun h => hz ((first0_iff t).mp h)) _ _ _ _ _ _ _ _ _ _ _ _
      (blk0 V c 0 t) (blk0 V c 3 t) (scr0 V c) _)
    isplitl [H0]; · iexact H0
    isplitl [H3]; · iexact H3
    isplitl [H4]; · iexists _; iexact H4
    isplitl [HS]; · iexact HS
    iintro ⟨H0, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the plain one: every scoped buffer no window stages at anything, the generator
    register at some state. -/
theorem inv0_first (c : Dev nD) : (dat0 V c).Φ 0 = Pipeline.ΦA spec0 c := rfl

/-- After the last point it gives that back: what the scratch holds is forgotten. -/
theorem inv0_last (c : Dev nD) : (dat0 V c).Φ (Fin.last cfg0.N) ⊢ Pipeline.ΦA spec0 c := by
  rw [show (dat0 V c).Φ (Fin.last cfg0.N) = inv0 V c (Fin.last cfg0.N).val from rfl,
    inv0_pos V c _ (by rw [Fin.val_last]; have : cfg0.N = 25 := N_0; omega)]
  iintro ⟨HS, Hr, Hg⟩
  iapply (close0 (F := F) c)
  isplitl [HS]; · iexists _; iexact HS
  isplitl [Hr]; · iexact Hr
  iexact Hg

end Region

end Cert.Kernel.Hand

end
-- ==== Proof.Kernel.Run1.lean ====
/-
  The body of layer 2's kernel, run once at the first grid point and once at a later one.

  At the first point the body multiplies the whole feature matrix by the weight matrix and keeps the
  product `z` in the scratch buffer; at every point it multiplies the point's 400 rows of the
  adjacency matrix by the scratch, adds the bias row, and divides each row by the larger of its
  Euclidean norm and the constant 1e-12, storing the 400 normalised rows.  Both runs leave the input
  buffers as they were; the first leaves the scratch at `z`, the later ones find it there and
  leave it untouched.
-/
import proofs.«160204_g83296595739027_cont_9to1c4b_134_2_alg».proof.Proof.Gen.Kernel.Launch
import proofs.«160204_g83296595739027_cont_9to1c4b_134_2_alg».proof.Proof.Gen.Kernel.Skeleton
import proofs.«160204_g83296595739027_cont_9to1c4b_134_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a whole-buffer access are all zero. -/
theorem zero_off1 : (![0, 0] : Fin 2 → Nat) = fun _ => 0 := by
  funext a; fin_cases a <;> rfl

/-- "This is the first grid point", as the body computes it from the grid coordinate. -/
abbrev first1 (i : grid1.Coords) : Prop :=
  (Scalar.cmpi .ne (Scalar.extui (Scalar.cmpi .eq (BitVec.ofNat 32 (i 0).val) 0#32)) 0#32) = 1#1

/-- It holds at point 0 and at no other of the 25 points. -/
theorem first1_iff : ∀ t : Fin cfg1.N, first1 (grid1.coords t) ↔ t.val = 0 :=
  (by decide +kernel : ∀ t : Fin grid1.N, first1 (grid1.coords t) ↔ t.val = 0)

/-- One whole-buffer store covers the output block. -/
theorem cover_out1 (p : Vec F S400x128 .f32) (y : S400x128.Idx) :
    ∃ pc ∈ ([⟨Rect.unit (s := S400x128) ![0, 0] S400x128.size inb_S400x128_S400x128_0_0, p⟩] : List (View.Piece (Elt F) S400x128 .f32)), y ∈ pc.1.set :=
  ⟨_, List.mem_singleton_self _, View.mem_set_unit_zero zero_off1 inb_S400x128_S400x128_0_0 y⟩

/-- One whole-buffer store covers the scratch. -/
theorem cover_scratch1 (p : Vec F S10000x128 .f32) (y : S10000x128.Idx) :
    ∃ pc ∈ ([⟨Rect.unit (s := S10000x128) ![0, 0] S10000x128.size inb_S10000x128_S10000x128_0_0, p⟩] : List (View.Piece (Elt F) S10000x128 .f32)), y ∈ pc.1.set :=
  ⟨_, List.mem_singleton_self _, View.mem_set_unit_zero zero_off1 inb_S10000x128_S10000x128_0_0 y⟩

set_option maxHeartbeats 1000000 in
/-- A later point: the scratch already holds `z`; the 400 rows `x1` of the adjacency matrix and the bias row
    `x4` give the normalised rows, and nothing else changes. -/
theorem run1_rest (c : Dev nD) (E : Set ℕ) (i : grid1.Coords) (hc : ¬ first1 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S400x128 .f32) (harg5 : arg5.IsWhole) (arg6 : Memref sig .tc .vmem S10000x128 .f32) (harg6 : arg6.IsWhole)
    (x1 : Vec F S400x10000 .f32) (x4 : Vec F S1x128 .f32) (z : Vec F S10000x128 .f32) (K : PUnit → sProp 𝕄) :
    iprop(owns (c : Thread nD τ) arg1 fullShare x1 ∗ owns (c : Thread nD τ) arg4 fullShare x4 ∗ (∃ d, owns (c : Thread nD τ) arg5 fullShare d)
        ∗ owns (c : Thread nD τ) arg6 fullShare z
        ∗ (iprop(owns (c : Thread nD τ) arg1 fullShare x1 ∗ owns (c : Thread nD τ) arg4 fullShare x4
            ∗ owns (c : Thread nD τ) arg5 fullShare (k1_pay2 x1 z x4) ∗ owns (c : Thread nD τ) arg6 fullShare z) -∗ K ⟨⟩))
      ⊢ wp frame (wpE (defs₀ (F := F)) Variants.none c none) E (cc1__layer_body i arg1 harg1 arg2 harg2 arg3 harg3 arg4 harg4 arg5 harg5 arg6 harg6) K := by
  simp only [cc1__layer_body_eq_skeleton]; unfold cc1__layer_body_skel
  unfold owns
  iintro ⟨⟨%f1, %hf1, H1⟩, ⟨%f4, %hf4, H4⟩, ⟨%d5, %f5, -, H5⟩, ⟨%f6, %hf6, H6⟩, Hk⟩
  obtain rfl := harg1.eq_unread hf1; obtain rfl := harg4.eq_unread hf4; obtain rfl := harg6.eq_unread hf6
  sl_exec (disch := first | exact hc)
  sl_step
  iapply Hk
  isplitl [H1]
  · iexists _; isplitr; · ipureintro; exact harg1.read_unread _
    iexact H1
  isplitl [H4]
  · iexists _; isplitr; · ipureintro; exact harg4.read_unread _
    iexact H4
  isplitl [H5]
  · iexists _; isplitr
    swap; · iexact H5
    ipureintro
    rw [View.read_writes_eq_canon _ _ _ (cover_out1 _), View.canon_unit_zero zero_off1]
    simp only [View.readAt_eq_ld, harg1.read_unread, harg4.read_unread, harg6.read_unread,
      View.ld_unit_zero (S := S400x10000) zero_off1, View.ld_unit_zero (S := S1x128) zero_off1,
      View.ld_unit_zero (S := S10000x128) zero_off1]
  iexists _; isplitr; · ipureintro; exact harg6.read_unread _
  iexact H6

set_option maxHeartbeats 4000000 in
/-- The first point: the scratch holds anything; the body stores the product of the feature matrix `x2` and the
    weight matrix `x3` into it, and then computes the first 400 normalised rows from it as at any point. -/
theorem run1_first (c : Dev nD) (E : Set ℕ) (i : grid1.Coords) (hc : first1 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S400x128 .f32) (harg5 : arg5.IsWhole) (arg6 : Memref sig .tc .vmem S10000x128 .f32) (harg6 : arg6.IsWhole)
    (x1 : Vec F S400x10000 .f32) (x2 : Vec F S10000x128 .f32) (x3 : Vec F S128x128 .f32) (x4 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (k1_pay2 x1 (k1_pay1 x2 x3) x4) ∗ owns (c : Thread nD τ) arg6 fullShare (k1_pay1 x2 x3)) -∗ K ⟨⟩))
      ⊢ wp frame (wpE (defs₀ (F := F)) Variants.none c none) E (cc1__layer_body i arg1 harg1 arg2 harg2 arg3 harg3 arg4 harg4 arg5 harg5 arg6 harg6) K := by
  simp only [cc1__layer_body_eq_skeleton]; unfold cc1__layer_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2; obtain rfl := harg3.eq_unread hf3; obtain rfl := harg4.eq_unread hf4
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover_out1 _), View.canon_unit_zero zero_off1]
    refine congr (congr (congrArg k1_pay2 ?_) ?_) ?_
    · rw [View.readAt_eq_ld, harg1.read_unread, View.ld_unit_zero (S := S400x10000) zero_off1]
    · sl_unfold_run_names
      refine (View.readCov_unit_zero (S := S10000x128) arg6.view zero_off1 inb_S10000x128_S10000x128_0_0 _).trans ?_
      refine congr (congrArg k1_pay1 ?_) ?_
      · rw [View.readAt_eq_ld, harg2.read_unread, View.ld_unit_zero (S := S10000x128) zero_off1]
      · rw [View.readAt_eq_ld, harg3.read_unread, View.ld_unit_zero (S := S128x128) zero_off1]
    · rw [View.readAt_eq_ld, harg4.read_unread, View.ld_unit_zero (S := S1x128) zero_off1]
  iexists _; isplitr
  swap; · iexact H6
  ipureintro
  sl_unfold_run_names
  rw [View.read_writes_eq_canon _ _ _ (cover_scratch1 _), View.canon_unit_zero zero_off1]
  refine congr (congrArg k1_pay1 ?_) ?_
  · rw [View.readAt_eq_ld, harg2.read_unread, View.ld_unit_zero (S := S10000x128) zero_off1]
  · rw [View.readAt_eq_ld, harg3.read_unread, View.ld_unit_zero (S := S128x128) zero_off1]

end Cert.Kernel.Hand

end
-- ==== Proof.Kernel.Region1.lean ====
/-
  Layer 2's kernel as one region of the program: what each of its 25 grid points finds and leaves.

  The region streams the adjacency matrix in 25 stripes of 400 rows (window 0), keeps the feature matrix,
  the weight matrix and the bias row in place (windows 1, 2, 3: one block each, the whole array), and writes
  400 rows of the result per point (window 4).  The scratch buffer is not staged by the pipeline: before the
  first point it holds anything; the first point stores the product of the feature and weight matrices
  there, and every later point finds that same product.  So the region's invariant after the first point is
  "the scratch holds that product", and point `t` leaves in the output block the 400 normalised rows
  computed from stripe `t`, the product and the bias row.
-/
import proofs.«160204_g83296595739027_cont_9to1c4b_134_2_alg».proof.Proof.Kernel.Run1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

-- the buffer contents of the core when the region is entered
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds its block at every point, fetched there or not. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current staging buffer holds its block at every point, fetched there or not. -/
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's current staging buffer holds its block at every point, fetched there or not. -/
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The first grid point. -/
abbrev pt0_1 : Fin cfg1.N := ⟨0, by decide⟩

/-- The scratch operand, a whole buffer of the kernel's own. -/
abbrev scM1 : Memref sig .tc .vmem S10000x128 .f32 := Memref.whole cc1_scratch0

/-- What the scratch holds from the first point on: the feature matrix times the weight matrix. -/
def scr1 (c : Dev nD) : Vec F S10000x128 .f32 := k1_pay1 (blk1 V c 1 pt0_1) (blk1 V c 2 pt0_1)

/-- What point `t` leaves in the output block: the normalised rows of stripe `t`. -/
def rows1 (c : Dev nD) (t : Fin cfg1.N) : Vec F S400x128 .f32 := k1_pay2 (blk1 V c 0 t) (scr1 V c) (blk1 V c 3 t)

/-- The scoped buffers the region does not use (the other region's staging buffers and scratch), at anything. -/
abbrev others1 (c : Dev nD) : sProp 𝕄 :=
  Pipeline.scopedRestBut (Ix := Unit) (Name := ℕ) (U := UR sig nD τ) (Lvl := ℕ) (Val := Elt F) spec1 c [cc1_scratch0]

/-- The region's invariant before position `n`: before the first point the scratch holds anything; afterwards the product. -/
def inv1 (c : Dev nD) : ℕ → sProp 𝕄
  | 0 => Pipeline.ΦA spec1 c
  | _ + 1 => iprop(owns (c : Thread nD τ) scM1 fullShare (scr1 V c) ∗ others1 c ∗ ∃ r, prngReg c r)

theorem inv1_pos (c : Dev nD) (n : ℕ) (hn : n ≠ 0) :
    inv1 V c n = iprop(owns (c : Thread nD τ) scM1 fullShare (scr1 V c) ∗ others1 c ∗ ∃ r, prngReg c r) := by
  cases n with
  | zero => exact absurd rfl hn
  | succ n => rfl

/-- The scoped buffers no window stages are the scratch and the others. -/
theorem rest_split1 (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ others1 (F := F) c) := by
  rw [Pipeline.scopedRest_split_of_list spec1 c [cc1_scratch0] (by decide) (by decide)]
  simp only [scM1, owns_whole]
  rfl

/-- The invariant before the first point, opened: the scratch at anything, the others, the generator register. -/
theorem open1 (c : Dev nD) :
    (Pipeline.ΦA spec1 c : sProp 𝕄) ⊢ iprop((∃ d, owns (c : Thread nD τ) scM1 fullShare d) ∗ others1 (F := F) c ∗ ∃ r, prngReg c r) := by
  unfold Pipeline.ΦA; rw [rest_split1]
  iintro ⟨⟨HS, Hr⟩, Hg⟩
  isplitl [HS]; · iexact HS
  isplitl [Hr]; · iexact Hr
  iexact Hg

/-- And closed again, whatever the scratch holds. -/
theorem close1 (c : Dev nD) :
    iprop((∃ d, owns (c : Thread nD τ) scM1 fullShare d) ∗ others1 (F := F) c ∗ ∃ r, prngReg c r) ⊢ (Pipeline.ΦA spec1 c : sProp 𝕄) := by
  unfold Pipeline.ΦA; rw [rest_split1]
  iintro ⟨HS, Hr, Hg⟩
  isplitl [HS Hr]
  · isplitl [HS]; · iexact HS
    iexact Hr
  iexact Hg

/-- The proof data of the region on core `c`: the arrays as the region finds them; after the body each input's buffer
    at its block and the output's at the point's normalised rows; the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => rows1 V c t
  Φ t := inv1 V c t.val
  q _ := fullShare
  owed _ := 0

theorem arr1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = rows1 V c t := by dsimp only [dat1]

theorem before1_0 (c : Dev nD) (t : Fin cfg1.N) (d) : (dat1 V c).before 0 t d = blk1 V c 0 t :=
  found1_0 V (dat1 V c) (arr1 V c 0) (after1_0 V c) t d
theorem before1_1 (c : Dev nD) (t : Fin cfg1.N) (d) : (dat1 V c).before 1 t d = blk1 V c 1 t :=
  found1_1 V (dat1 V c) (arr1 V c 1) (after1_1 V c) t d
theorem before1_2 (c : Dev nD) (t : Fin cfg1.N) (d) : (dat1 V c).before 2 t d = blk1 V c 2 t :=
  found1_2 V (dat1 V c) (arr1 V c 2) (after1_2 V c) t d
theorem before1_3 (c : Dev nD) (t : Fin cfg1.N) (d) : (dat1 V c).before 3 t d = blk1 V c 3 t :=
  found1_3 V (dat1 V c) (arr1 V c 3) (after1_3 V c) t d

theorem inv1_start (c : Dev nD) (t : Fin cfg1.N) : (dat1 V c).Φ t.castSucc = inv1 V c t.val := by
  dsimp only [dat1]; simp only [Fin.coe_castSucc]

theorem inv1_end (c : Dev nD) (t : Fin cfg1.N) :
    (dat1 V c).Φ t.succ = iprop(owns (c : Thread nD τ) scM1 fullShare (scr1 V c) ∗ others1 c ∗ ∃ r, prngReg c r) := rfl

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: the inputs' buffers hold their blocks; at the first point the scratch holds anything and
    is left at the product, at a later point it holds the product and is left alone; the output's buffer ends at the
    point's normalised rows; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4, inv1_start, inv1_end]
  by_cases hz : t.val = 0
  · obtain rfl : t = pt0_1 := Fin.ext hz
    rw [show inv1 V c (pt0_1 : Fin cfg1.N).val = Pipeline.ΦA spec1 c from rfl]
    iintro ⟨HΦ, Ho, ⟨%d0, H0⟩, ⟨%d1, H1⟩, ⟨%d2, H2⟩, ⟨%d3, H3⟩, ⟨%d4, H4⟩⟩
    ihave HΦ' := (open1 (F := F) c) $$ HΦ
    icases HΦ' with ⟨HS, Hr, Hg⟩
    iapply (run1_first c Set.univ (grid1.coords pt0_1) ((first1_iff pt0_1).mpr rfl) _ _ _ _ _ _ _ _ _ _ _ _
      (blk1 V c 0 pt0_1) (blk1 V c 1 pt0_1) (blk1 V c 2 pt0_1) (blk1 V c 3 pt0_1) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [inv1_pos V c _ hz]
    iintro ⟨⟨HS, Hr, Hg⟩, Ho, ⟨%d0, H0⟩, ⟨%d1, H1⟩, ⟨%d2, H2⟩, ⟨%d3, H3⟩, ⟨%d4, H4⟩⟩
    iapply (run1_rest c Set.univ (grid1.coords t) (fun h => hz ((first1_iff t).mp h)) _ _ _ _ _ _ _ _ _ _ _ _
      (blk1 V c 0 t) (blk1 V c 3 t) (scr1 V c) _)
    isplitl [H0]; · iexact H0
    isplitl [H3]; · iexact H3
    isplitl [H4]; · iexists _; iexact H4
    isplitl [HS]; · iexact HS
    iintro ⟨H0, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the plain one: every scoped buffer no window stages at anything, the generator
    register at some state. -/
theorem inv1_first (c : Dev nD) : (dat1 V c).Φ 0 = Pipeline.ΦA spec1 c := rfl

/-- After the last point it gives that back: what the scratch holds is forgotten. -/
theorem inv1_last (c : Dev nD) : (dat1 V c).Φ (Fin.last cfg1.N) ⊢ Pipeline.ΦA spec1 c := by
  rw [show (dat1 V c).Φ (Fin.last cfg1.N) = inv1 V c (Fin.last cfg1.N).val from rfl,
    inv1_pos V c _ (by rw [Fin.val_last]; have : cfg1.N = 25 := N_1; omega)]
  iintro ⟨HS, Hr, Hg⟩
  iapply (close1 (F := F) c)
  isplitl [HS]; · iexists _; iexact HS
  isplitl [Hr]; · iexact Hr
  iexact Hg

end Region

end Cert.Kernel.Hand

end
-- ==== Proof.Kernel.Frame.lean ====
/-
  The whole program as four items in a row — the first bias row's reshape, layer 1's region, the second bias row's
  reshape, layer 2's region — and what the memory holds between them.

  Before an item every unscoped buffer holds a named contents: the launch memory; then the reshape's result beside it;
  then, after a region, that region's output array at what its 25 write-backs leave and every other buffer as it was;
  and so on.  Every execution terminates with every unscoped buffer at the last of these contents.  No item writes an
  argument array, so each argument reads back as launched, and the program's result array reads back as what layer 2's
  write-backs leave.
-/
import proofs.«160204_g83296595739027_cont_9to1c4b_134_2_alg».proof.Proof.Kernel.Region0
import proofs.«160204_g83296595739027_cont_9to1c4b_134_2_alg».proof.Proof.Kernel.Region1
import proofs.«160204_g83296595739027_cont_9to1c4b_134_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- At launch. -/
abbrev mem0 : Dev nD → Valuation τ sig (Elt F) := fun c b => m ((c : Dev nD), b)
/-- After the first reshape: layer 1's entry. -/
abbrev mem1 : Dev nD → Valuation τ sig (Elt F) := fun c => StableHlo.after hostOps0 (mem0 m c)
abbrev ent0 : (c : Dev nD) → (b : Ref sig .tc) → Buf (Elt F) ((c : Thread nD τ).loc b) := fun c b => mem1 m c b
/-- After layer 1: its arrays at what the pipeline leaves, every other buffer as entered. -/
def mem2 (c : Dev nD) : Valuation τ sig (Elt F) :=
  Pipeline.withArrays spec0 c (mem1 m c) fun w => (dat0 (ent0 m) c).arrAt w cfg0.N
theorem mem2_arr (c : Dev nD) (w : Fin cfg0.W) :
    mem2 m c (Proc.devRef .tc (Pipeline.arrRef spec0 w)) = (dat0 (ent0 m) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m c (Proc.devRef .tc b) = mem1 m c (Proc.devRef .tc b) := by
  unfold mem2; exact Pipeline.withArrays_of_ne spec0 c _ _ b hb
/-- An input window's array leaves layer 1 as it entered. -/
theorem mem2_in (c : Dev nD) (w : Fin cfg0.W) (hw : (cfg0.win w).isOut = false) :
    mem2 m c (Proc.devRef .tc (Pipeline.arrRef spec0 w)) = mem1 m c (Proc.devRef .tc (Pipeline.arrRef spec0 w)) :=
  (mem2_arr m c w).trans (((dat0 (ent0 m) c).arrAt_in w hw _).trans (arr0 (ent0 m) c w))
abbrev ext0 : (c : Dev nD) → (b : Ref sig .tc) → Buf (Elt F) ((c : Thread nD τ).loc b) := fun c b => mem2 m c b
theorem left0 (c : Dev nD) (w : Fin cfg0.W) : (dat0 (ent0 m) c).arrAt w cfg0.N = ext0 m c (Pipeline.arrRef spec0 w) :=
  (mem2_arr m c w).symm
theorem kept0 (c : Dev nD) : ∀ b, b ∉ Finset.univ.image (Pipeline.arrRef spec0) → ext0 m c b = ent0 m c b :=
  fun b hb => mem2_of_ne m c b fun w e => hb (Finset.mem_image.mpr ⟨w, Finset.mem_univ _, e⟩)

/-- After the second reshape: layer 2's entry. -/
abbrev mem3 : Dev nD → Valuation τ sig (Elt F) := fun c => StableHlo.after hostOps1 (mem2 m c)
abbrev ent1 : (c : Dev nD) → (b : Ref sig .tc) → Buf (Elt F) ((c : Thread nD τ).loc b) := fun c b => mem3 m c b
/-- After layer 2. -/
def mem4 (c : Dev nD) : Valuation τ sig (Elt F) :=
  Pipeline.withArrays spec1 c (mem3 m c) fun w => (dat1 (ent1 m) c).arrAt w cfg1.N
theorem mem4_arr (c : Dev nD) (w : Fin cfg1.W) :
    mem4 m c (Proc.devRef .tc (Pipeline.arrRef spec1 w)) = (dat1 (ent1 m) c).arrAt w cfg1.N := by
  unfold mem4; exact Pipeline.withArrays_arr spec1 launch1.win.arr_inj c _ _ w
theorem mem4_of_ne (c : Dev nD) (b : Ref sig .tc) (hb : ∀ w, Pipeline.arrRef spec1 w ≠ b) :
    mem4 m c (Proc.devRef .tc b) = mem3 m c (Proc.devRef .tc b) := by
  unfold mem4; exact Pipeline.withArrays_of_ne spec1 c _ _ b hb
theorem mem4_in (c : Dev nD) (w : Fin cfg1.W) (hw : (cfg1.win w).isOut = false) :
    mem4 m c (Proc.devRef .tc (Pipeline.arrRef spec1 w)) = mem3 m c (Proc.devRef .tc (Pipeline.arrRef spec1 w)) :=
  (mem4_arr m c w).trans (((dat1 (ent1 m) c).arrAt_in w hw _).trans (arr1 (ent1 m) c w))
abbrev ext1 : (c : Dev nD) → (b : Ref sig .tc) → Buf (Elt F) ((c : Thread nD τ).loc b) := fun c b => mem4 m c b
theorem left1 (c : Dev nD) (w : Fin cfg1.W) : (dat1 (ent1 m) c).arrAt w cfg1.N = ext1 m c (Pipeline.arrRef spec1 w) :=
  (mem4_arr m c w).symm
theorem kept1 (c : Dev nD) : ∀ b, b ∉ Finset.univ.image (Pipeline.arrRef spec1) → ext1 m c b = ent1 m c b :=
  fun b hb => mem4_of_ne m c b fun w e => hb (Finset.mem_image.mpr ⟨w, Finset.mem_univ _, e⟩)

/-! ## The arguments end as launched -/

/-- `main_arg0` reaches the end as launched: no host operation writes it, and a region reads it at most. -/
theorem end_main_arg0 (c : Dev nD) : mem4 m c (Proc.devRef .tc main_arg0) = m ((c : Thread nD τ).loc main_arg0) :=
  calc mem4 m c (Proc.devRef .tc main_arg0)
    _ = mem3 m c (Proc.devRef .tc main_arg0) := mem4_of_ne m c main_arg0 (by decide)
    _ = mem2 m c (Proc.devRef .tc main_arg0) := StableHlo.after_of_writes_sub hostOps1 _ hostOps1_writes (by decide : main_arg0 ∉ hostOps1_W)
    _ = mem1 m c (Proc.devRef .tc main_arg0) := mem2_in m c 1 rfl
    _ = mem0 m c (Proc.devRef .tc main_arg0) := StableHlo.after_of_writes_sub hostOps0 _ hostOps0_writes (by decide : main_arg0 ∉ hostOps0_W)
    _ = m ((c : Thread nD τ).loc main_arg0) := rfl

/-- `main_arg1` reaches the end as launched: no host operation writes it, and a region reads it at most. -/
theorem end_main_arg1 (c : Dev nD) : mem4 m c (Proc.devRef .tc main_arg1) = m ((c : Thread nD τ).loc main_arg1) :=
  calc mem4 m c (Proc.devRef .tc main_arg1)
    _ = mem3 m c (Proc.devRef .tc main_arg1) := mem4_in m c 0 rfl
    _ = mem2 m c (Proc.devRef .tc main_arg1) := StableHlo.after_of_writes_sub hostOps1 _ hostOps1_writes (by decide : main_arg1 ∉ hostOps1_W)
    _ = mem1 m c (Proc.devRef .tc main_arg1) := mem2_in m c 0 rfl
    _ = mem0 m c (Proc.devRef .tc main_arg1) := StableHlo.after_of_writes_sub hostOps0 _ hostOps0_writes (by decide : main_arg1 ∉ hostOps0_W)
    _ = m ((c : Thread nD τ).loc main_arg1) := rfl

/-- `main_arg2` reaches the end as launched: no host operation writes it, and a region reads it at most. -/
theorem end_main_arg2 (c : Dev nD) : mem4 m c (Proc.devRef .tc main_arg2) = m ((c : Thread nD τ).loc main_arg2) :=
  calc mem4 m c (Proc.devRef .tc main_arg2)
    _ = mem3 m c (Proc.devRef .tc main_arg2) := mem4_of_ne m c main_arg2 (by decide)
    _ = mem2 m c (Proc.devRef .tc main_arg2) := StableHlo.after_of_writes_sub hostOps1 _ hostOps1_writes (by decide : main_arg2 ∉ hostOps1_W)
    _ = mem1 m c (Proc.devRef .tc main_arg2) := mem2_in m c 2 rfl
    _ = mem0 m c (Proc.devRef .tc main_arg2) := StableHlo.after_of_writes_sub hostOps0 _ hostOps0_writes (by decide : main_arg2 ∉ hostOps0_W)
    _ = m ((c : Thread nD τ).loc main_arg2) := rfl

/-- `main_arg3` reaches the end as launched: no host operation writes it, and a region reads it at most. -/
theorem end_main_arg3 (c : Dev nD) : mem4 m c (Proc.devRef .tc main_arg3) = m ((c : Thread nD τ).loc main_arg3) :=
  calc mem4 m c (Proc.devRef .tc main_arg3)
    _ = mem3 m c (Proc.devRef .tc main_arg3) := mem4_of_ne m c main_arg3 (by decide)
    _ = mem2 m c (Proc.devRef .tc main_arg3) := StableHlo.after_of_writes_sub hostOps1 _ hostOps1_writes (by decide : main_arg3 ∉ hostOps1_W)
    _ = mem1 m c (Proc.devRef .tc main_arg3) := mem2_of_ne m c main_arg3 (by decide)
    _ = mem0 m c (Proc.devRef .tc main_arg3) := StableHlo.after_of_writes_sub hostOps0 _ hostOps0_writes (by decide : main_arg3 ∉ hostOps0_W)
    _ = m ((c : Thread nD τ).loc main_arg3) := rfl

/-- `main_arg4` reaches the end as launched: no host operation writes it, and a region reads it at most. -/
theorem end_main_arg4 (c : Dev nD) : mem4 m c (Proc.devRef .tc main_arg4) = m ((c : Thread nD τ).loc main_arg4) :=
  calc mem4 m c (Proc.devRef .tc main_arg4)
    _ = mem3 m c (Proc.devRef .tc main_arg4) := mem4_in m c 2 rfl
    _ = mem2 m c (Proc.devRef .tc main_arg4) := StableHlo.after_of_writes_sub hostOps1 _ hostOps1_writes (by decide : main_arg4 ∉ hostOps1_W)
    _ = mem1 m c (Proc.devRef .tc main_arg4) := mem2_of_ne m c main_arg4 (by decide)
    _ = mem0 m c (Proc.devRef .tc main_arg4) := StableHlo.after_of_writes_sub hostOps0 _ hostOps0_writes (by decide : main_arg4 ∉ hostOps0_W)
    _ = m ((c : Thread nD τ).loc main_arg4) := rfl

/-- `main_arg5` reaches the end as launched: no host operation writes it, and a region reads it at most. -/
theorem end_main_arg5 (c : Dev nD) : mem4 m c (Proc.devRef .tc main_arg5) = m ((c : Thread nD τ).loc main_arg5) :=
  calc mem4 m c (Proc.devRef .tc main_arg5)
    _ = mem3 m c (Proc.devRef .tc main_arg5) := mem4_of_ne m c main_arg5 (by decide)
    _ = mem2 m c (Proc.devRef .tc main_arg5) := StableHlo.after_of_writes_sub hostOps1 _ hostOps1_writes (by decide : main_arg5 ∉ hostOps1_W)
    _ = mem1 m c (Proc.devRef .tc main_arg5) := mem2_of_ne m c main_arg5 (by decide)
    _ = mem0 m c (Proc.devRef .tc main_arg5) := StableHlo.after_of_writes_sub hostOps0 _ hostOps0_writes (by decide : main_arg5 ∉ hostOps0_W)
    _ = m ((c : Thread nD τ).loc main_arg5) := rfl

/-! ## The proof data family and the thread state -/

/-- No region has a prefetched table. -/
abbrev tables : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) tables p) c
  | ⟨0, _⟩ => fun c => dat0 (ent0 m) c
  | ⟨1, _⟩ => fun c => dat1 (ent1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last contents, the generator register at some state. -/
abbrev Tₙ (c : Dev nD) : sProp 𝕄 := iprop(StableHlo.held (c : Thread nD τ) (Pipeline.ucRefs τ sig) (mem4 m c) ∗ ∃ r, prngReg c r)

/-! ## The regions as items -/

set_option backward.isDefEq.respectTransparency.types false in
/-- Layer 1's region over the thread state: entered from every unscoped buffer at its contents before the region, left
    with the region's arrays at what the write-backs leave.  Its arrays are split out of the unscoped buffers and put back
    at the end; the generator register and the scoped rest go into the invariant and come out of it; nothing is owed. -/
def reg0 : Pipeline.RegionSeg (pcfgs (F := F)) tables (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (mem1 m c) ∗ R c)
  post c := iprop(StableHlo.held (c : Thread nD τ) (Pipeline.ucRefs τ sig) (mem2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) tables (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from inv0_last (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered from every unscoped buffer at its contents before the region, left
    with the region's arrays at what the write-backs leave.  Its arrays are split out of the unscoped buffers and put back
    at the end; the generator register and the scoped rest go into the invariant and come out of it; nothing is owed. -/
def reg1 : Pipeline.RegionSeg (pcfgs (F := F)) tables (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (mem3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) tables (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from inv1_last (ent1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev segs : List (Pipeline.Seg (pcfgs (F := F)) tables (pdats m) () defs₀ 𝒱₀ L lv) :=
  [ .host (hseg hostOps0 hostOps0_sub hostOps0_fresh (mem0 m)),
    .region (reg0 m),
    .host (hseg hostOps1 hostOps1_sub hostOps1_fresh (mem2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = mem4 m c b) :=
  Pipeline.θ_run_regions_kit (pcfgs (F := F)) tables (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem4 m c b)
    (hfin := fun c s' => by
      iintro ⟨⟨Hh, -⟩, HSI⟩
      unfold StableHlo.held
      imodintro
      iapply (pointsTo_read_all (Pipeline.ucRefs τ sig) (fun b => (((c : Thread nD τ)).1, b)) (mem4 m c) s')
      isplitl [Hh] <;> iassumption)
    (hQ := fun s h c => h c)

/-- The same run read at the program's result and its arguments: the result array ends at what layer 2's write-backs
    leave, every argument as launched. -/
theorem run_result : θ_run defs (onTc (τ := τ) (main (F := F))) ⟨m, fun _ => 0, ρ⟩ (fun r => ∀ c : Dev nD,
      r.2.mem ((c.tc : Thread nD τ).loc main_v3) = (dat1 (ent1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v3 (by decide))).trans (mem4_arr m c 4),
     (h c _ (mem_uc main_arg0 (by decide))).trans (end_main_arg0 m c),
     (h c _ (mem_uc main_arg1 (by decide))).trans (end_main_arg1 m c),
     (h c _ (mem_uc main_arg2 (by decide))).trans (end_main_arg2 m c),
     (h c _ (mem_uc main_arg3 (by decide))).trans (end_main_arg3 m c),
     (h c _ (mem_uc main_arg4 (by decide))).trans (end_main_arg4 m c),
     (h c _ (mem_uc main_arg5 (by decide))).trans (end_main_arg5 m c)⟩) (run_all m ρ)

/-- The frame: every execution terminates, faults nowhere, and leaves the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_result m ρ)

end Cert.Kernel.Hand

end
-- ==== Proof.KernelIdeal.Run0.lean ====
/-
  The body of layer 1's kernel, run once at the first grid point and once at a later one.

  At the first point the body multiplies the whole feature matrix by the weight matrix and keeps the
  product `z` in the scratch buffer; at every point it multiplies the point's 400 rows of the
  adjacency matrix by the scratch, adds the bias row, and divides each row by the larger of its
  Euclidean norm and the constant 1e-12, storing the 400 normalised rows.  Both runs leave the input
  buffers as they were; the first leaves the scratch at `z`, the later ones find it there and
  leave it untouched.
-/
import proofs.«160204_g83296595739027_cont_9to1c4b_134_2_alg».proof.Proof.Gen.KernelIdeal.Launch
import proofs.«160204_g83296595739027_cont_9to1c4b_134_2_alg».proof.Proof.Gen.KernelIdeal.Skeleton
import proofs.«160204_g83296595739027_cont_9to1c4b_134_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a whole-buffer access are all zero. -/
theorem zero_off0 : (![0, 0] : Fin 2 → Nat) = fun _ => 0 := by
  funext a; fin_cases a <;> rfl

/-- "This is the first grid point", as the body computes it from the grid coordinate. -/
abbrev first0 (i : grid0.Coords) : Prop :=
  (Scalar.cmpi .ne (Scalar.extui (Scalar.cmpi .eq (BitVec.ofNat 32 (i 0).val) 0#32)) 0#32) = 1#1

/-- It holds at point 0 and at no other of the 25 points. -/
theorem first0_iff : ∀ t : Fin cfg0.N, first0 (grid0.coords t) ↔ t.val = 0 :=
  (by decide +kernel : ∀ t : Fin grid0.N, first0 (grid0.coords t) ↔ t.val = 0)

/-- One whole-buffer store covers the output block. -/
theorem cover_out0 (p : Vec F S400x128 .f32) (y : S400x128.Idx) :
    ∃ pc ∈ ([⟨Rect.unit (s := S400x128) ![0, 0] S400x128.size inb_S400x128_S400x128_0_0, p⟩] : List (View.Piece (Elt F) S400x128 .f32)), y ∈ pc.1.set :=
  ⟨_, List.mem_singleton_self _, View.mem_set_unit_zero zero_off0 inb_S400x128_S400x128_0_0 y⟩

/-- One whole-buffer store covers the scratch. -/
theorem cover_scratch0 (p : Vec F S10000x128 .f32) (y : S10000x128.Idx) :
    ∃ pc ∈ ([⟨Rect.unit (s := S10000x128) ![0, 0] S10000x128.size inb_S10000x128_S10000x128_0_0, p⟩] : List (View.Piece (Elt F) S10000x128 .f32)), y ∈ pc.1.set :=
  ⟨_, List.mem_singleton_self _, View.mem_set_unit_zero zero_off0 inb_S10000x128_S10000x128_0_0 y⟩

set_option maxHeartbeats 1000000 in
/-- A later point: the scratch already holds `z`; the 400 rows `x1` of the adjacency matrix and the bias row
    `x4` give the normalised rows, and nothing else changes. -/
theorem run0_rest (c : Dev nD) (E : Set ℕ) (i : grid0.Coords) (hc : ¬ first0 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S400x128 .f32) (harg5 : arg5.IsWhole) (arg6 : Memref sig .tc .vmem S10000x128 .f32) (harg6 : arg6.IsWhole)
    (x1 : Vec F S400x10000 .f32) (x4 : Vec F S1x128 .f32) (z : Vec F S10000x128 .f32) (K : PUnit → sProp 𝕄) :
    iprop(owns (c : Thread nD τ) arg1 fullShare x1 ∗ owns (c : Thread nD τ) arg4 fullShare x4 ∗ (∃ d, owns (c : Thread nD τ) arg5 fullShare d)
        ∗ owns (c : Thread nD τ) arg6 fullShare z
        ∗ (iprop(owns (c : Thread nD τ) arg1 fullShare x1 ∗ owns (c : Thread nD τ) arg4 fullShare x4
            ∗ owns (c : Thread nD τ) arg5 fullShare (k0_pay2 x1 z x4) ∗ owns (c : Thread nD τ) arg6 fullShare z) -∗ K ⟨⟩))
      ⊢ wp frame (wpE (defs₀ (F := F)) Variants.none c none) E (cc0__layer_body i arg1 harg1 arg2 harg2 arg3 harg3 arg4 harg4 arg5 harg5 arg6 harg6) K := by
  simp only [cc0__layer_body_eq_skeleton]; unfold cc0__layer_body_skel
  unfold owns
  iintro ⟨⟨%f1, %hf1, H1⟩, ⟨%f4, %hf4, H4⟩, ⟨%d5, %f5, -, H5⟩, ⟨%f6, %hf6, H6⟩, Hk⟩
  obtain rfl := harg1.eq_unread hf1; obtain rfl := harg4.eq_unread hf4; obtain rfl := harg6.eq_unread hf6
  sl_exec (disch := first | exact hc)
  sl_step
  iapply Hk
  isplitl [H1]
  · iexists _; isplitr; · ipureintro; exact harg1.read_unread _
    iexact H1
  isplitl [H4]
  · iexists _; isplitr; · ipureintro; exact harg4.read_unread _
    iexact H4
  isplitl [H5]
  · iexists _; isplitr
    swap; · iexact H5
    ipureintro
    rw [View.read_writes_eq_canon _ _ _ (cover_out0 _), View.canon_unit_zero zero_off0]
    simp only [View.readAt_eq_ld, harg1.read_unread, harg4.read_unread, harg6.read_unread,
      View.ld_unit_zero (S := S400x10000) zero_off0, View.ld_unit_zero (S := S1x128) zero_off0,
      View.ld_unit_zero (S := S10000x128) zero_off0]
  iexists _; isplitr; · ipureintro; exact harg6.read_unread _
  iexact H6

set_option maxHeartbeats 4000000 in
/-- The first point: the scratch holds anything; the body stores the product of the feature matrix `x2` and the
    weight matrix `x3` into it, and then computes the first 400 normalised rows from it as at any point. -/
theorem run0_first (c : Dev nD) (E : Set ℕ) (i : grid0.Coords) (hc : first0 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S400x128 .f32) (harg5 : arg5.IsWhole) (arg6 : Memref sig .tc .vmem S10000x128 .f32) (harg6 : arg6.IsWhole)
    (x1 : Vec F S400x10000 .f32) (x2 : Vec F S10000x128 .f32) (x3 : Vec F S128x128 .f32) (x4 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (k0_pay2 x1 (k0_pay1 x2 x3) x4) ∗ owns (c : Thread nD τ) arg6 fullShare (k0_pay1 x2 x3)) -∗ K ⟨⟩))
      ⊢ wp frame (wpE (defs₀ (F := F)) Variants.none c none) E (cc0__layer_body i arg1 harg1 arg2 harg2 arg3 harg3 arg4 harg4 arg5 harg5 arg6 harg6) K := by
  simp only [cc0__layer_body_eq_skeleton]; unfold cc0__layer_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2; obtain rfl := harg3.eq_unread hf3; obtain rfl := harg4.eq_unread hf4
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover_out0 _), View.canon_unit_zero zero_off0]
    refine congr (congr (congrArg k0_pay2 ?_) ?_) ?_
    · rw [View.readAt_eq_ld, harg1.read_unread, View.ld_unit_zero (S := S400x10000) zero_off0]
    · sl_unfold_run_names
      refine (View.readCov_unit_zero (S := S10000x128) arg6.view zero_off0 inb_S10000x128_S10000x128_0_0 _).trans ?_
      refine congr (congrArg k0_pay1 ?_) ?_
      · rw [View.readAt_eq_ld, harg2.read_unread, View.ld_unit_zero (S := S10000x128) zero_off0]
      · rw [View.readAt_eq_ld, harg3.read_unread, View.ld_unit_zero (S := S128x128) zero_off0]
    · rw [View.readAt_eq_ld, harg4.read_unread, View.ld_unit_zero (S := S1x128) zero_off0]
  iexists _; isplitr
  swap; · iexact H6
  ipureintro
  sl_unfold_run_names
  rw [View.read_writes_eq_canon _ _ _ (cover_scratch0 _), View.canon_unit_zero zero_off0]
  refine congr (congrArg k0_pay1 ?_) ?_
  · rw [View.readAt_eq_ld, harg2.read_unread, View.ld_unit_zero (S := S10000x128) zero_off0]
  · rw [View.readAt_eq_ld, harg3.read_unread, View.ld_unit_zero (S := S128x128) zero_off0]

end Cert.KernelIdeal.Hand

end
-- ==== Proof.KernelIdeal.Region0.lean ====
/-
  Layer 1's kernel as one region of the program: what each of its 25 grid points finds and leaves.

  The region streams the adjacency matrix in 25 stripes of 400 rows (window 0), keeps the feature matrix,
  the weight matrix and the bias row in place (windows 1, 2, 3: one block each, the whole array), and writes
  400 rows of the result per point (window 4).  The scratch buffer is not staged by the pipeline: before the
  first point it holds anything; the first point stores the product of the feature and weight matrices
  there, and every later point finds that same product.  So the region's invariant after the first point is
  "the scratch holds that product", and point `t` leaves in the output block the 400 normalised rows
  computed from stripe `t`, the product and the bias row.
-/
import proofs.«160204_g83296595739027_cont_9to1c4b_134_2_alg».proof.Proof.KernelIdeal.Run0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

-- the buffer contents of the core when the region is entered
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds its block at every point, fetched there or not. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current staging buffer holds its block at every point, fetched there or not. -/
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's current staging buffer holds its block at every point, fetched there or not. -/
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- The first grid point. -/
abbrev pt0_0 : Fin cfg0.N := ⟨0, by decide⟩

/-- The scratch operand, a whole buffer of the kernel's own. -/
abbrev scM0 : Memref sig .tc .vmem S10000x128 .f32 := Memref.whole cc0_scratch0

/-- What the scratch holds from the first point on: the feature matrix times the weight matrix. -/
def scr0 (c : Dev nD) : Vec F S10000x128 .f32 := k0_pay1 (blk0 V c 1 pt0_0) (blk0 V c 2 pt0_0)

/-- What point `t` leaves in the output block: the normalised rows of stripe `t`. -/
def rows0 (c : Dev nD) (t : Fin cfg0.N) : Vec F S400x128 .f32 := k0_pay2 (blk0 V c 0 t) (scr0 V c) (blk0 V c 3 t)

/-- The scoped buffers the region does not use (the other region's staging buffers and scratch), at anything. -/
abbrev others0 (c : Dev nD) : sProp 𝕄 :=
  Pipeline.scopedRestBut (Ix := Unit) (Name := ℕ) (U := UR sig nD τ) (Lvl := ℕ) (Val := Elt F) spec0 c [cc0_scratch0]

/-- The region's invariant before position `n`: before the first point the scratch holds anything; afterwards the product. -/
def inv0 (c : Dev nD) : ℕ → sProp 𝕄
  | 0 => Pipeline.ΦA spec0 c
  | _ + 1 => iprop(owns (c : Thread nD τ) scM0 fullShare (scr0 V c) ∗ others0 c ∗ ∃ r, prngReg c r)

theorem inv0_pos (c : Dev nD) (n : ℕ) (hn : n ≠ 0) :
    inv0 V c n = iprop(owns (c : Thread nD τ) scM0 fullShare (scr0 V c) ∗ others0 c ∗ ∃ r, prngReg c r) := by
  cases n with
  | zero => exact absurd rfl hn
  | succ n => rfl

/-- The scoped buffers no window stages are the scratch and the others. -/
theorem rest_split0 (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ others0 (F := F) c) := by
  rw [Pipeline.scopedRest_split_of_list spec0 c [cc0_scratch0] (by decide) (by decide)]
  simp only [scM0, owns_whole]
  rfl

/-- The invariant before the first point, opened: the scratch at anything, the others, the generator register. -/
theorem open0 (c : Dev nD) :
    (Pipeline.ΦA spec0 c : sProp 𝕄) ⊢ iprop((∃ d, owns (c : Thread nD τ) scM0 fullShare d) ∗ others0 (F := F) c ∗ ∃ r, prngReg c r) := by
  unfold Pipeline.ΦA; rw [rest_split0]
  iintro ⟨⟨HS, Hr⟩, Hg⟩
  isplitl [HS]; · iexact HS
  isplitl [Hr]; · iexact Hr
  iexact Hg

/-- And closed again, whatever the scratch holds. -/
theorem close0 (c : Dev nD) :
    iprop((∃ d, owns (c : Thread nD τ) scM0 fullShare d) ∗ others0 (F := F) c ∗ ∃ r, prngReg c r) ⊢ (Pipeline.ΦA spec0 c : sProp 𝕄) := by
  unfold Pipeline.ΦA; rw [rest_split0]
  iintro ⟨HS, Hr, Hg⟩
  isplitl [HS Hr]
  · isplitl [HS]; · iexact HS
    iexact Hr
  iexact Hg

/-- The proof data of the region on core `c`: the arrays as the region finds them; after the body each input's buffer
    at its block and the output's at the point's normalised rows; the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => rows0 V c t
  Φ t := inv0 V c t.val
  q _ := fullShare
  owed _ := 0

theorem arr0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = rows0 V c t := by dsimp only [dat0]

theorem before0_0 (c : Dev nD) (t : Fin cfg0.N) (d) : (dat0 V c).before 0 t d = blk0 V c 0 t :=
  found0_0 V (dat0 V c) (arr0 V c 0) (after0_0 V c) t d
theorem before0_1 (c : Dev nD) (t : Fin cfg0.N) (d) : (dat0 V c).before 1 t d = blk0 V c 1 t :=
  found0_1 V (dat0 V c) (arr0 V c 1) (after0_1 V c) t d
theorem before0_2 (c : Dev nD) (t : Fin cfg0.N) (d) : (dat0 V c).before 2 t d = blk0 V c 2 t :=
  found0_2 V (dat0 V c) (arr0 V c 2) (after0_2 V c) t d
theorem before0_3 (c : Dev nD) (t : Fin cfg0.N) (d) : (dat0 V c).before 3 t d = blk0 V c 3 t :=
  found0_3 V (dat0 V c) (arr0 V c 3) (after0_3 V c) t d

theorem inv0_start (c : Dev nD) (t : Fin cfg0.N) : (dat0 V c).Φ t.castSucc = inv0 V c t.val := by
  dsimp only [dat0]; simp only [Fin.coe_castSucc]

theorem inv0_end (c : Dev nD) (t : Fin cfg0.N) :
    (dat0 V c).Φ t.succ = iprop(owns (c : Thread nD τ) scM0 fullShare (scr0 V c) ∗ others0 c ∗ ∃ r, prngReg c r) := rfl

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
/-- The body at any point: the inputs' buffers hold their blocks; at the first point the scratch holds anything and
    is left at the product, at a later point it holds the product and is left alone; the output's buffer ends at the
    point's normalised rows; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, inv0_start, inv0_end]
  by_cases hz : t.val = 0
  · obtain rfl : t = pt0_0 := Fin.ext hz
    rw [show inv0 V c (pt0_0 : Fin cfg0.N).val = Pipeline.ΦA spec0 c from rfl]
    iintro ⟨HΦ, Ho, ⟨%d0, H0⟩, ⟨%d1, H1⟩, ⟨%d2, H2⟩, ⟨%d3, H3⟩, ⟨%d4, H4⟩⟩
    ihave HΦ' := (open0 (F := F) c) $$ HΦ
    icases HΦ' with ⟨HS, Hr, Hg⟩
    iapply (run0_first c Set.univ (grid0.coords pt0_0) ((first0_iff pt0_0).mpr rfl) _ _ _ _ _ _ _ _ _ _ _ _
      (blk0 V c 0 pt0_0) (blk0 V c 1 pt0_0) (blk0 V c 2 pt0_0) (blk0 V c 3 pt0_0) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [inv0_pos V c _ hz]
    iintro ⟨⟨HS, Hr, Hg⟩, Ho, ⟨%d0, H0⟩, ⟨%d1, H1⟩, ⟨%d2, H2⟩, ⟨%d3, H3⟩, ⟨%d4, H4⟩⟩
    iapply (run0_rest c Set.univ (grid0.coords t) (fun h => hz ((first0_iff t).mp h)) _ _ _ _ _ _ _ _ _ _ _ _
      (blk0 V c 0 t) (blk0 V c 3 t) (scr0 V c) _)
    isplitl [H0]; · iexact H0
    isplitl [H3]; · iexact H3
    isplitl [H4]; · iexists _; iexact H4
    isplitl [HS]; · iexact HS
    iintro ⟨H0, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the plain one: every scoped buffer no window stages at anything, the generator
    register at some state. -/
theorem inv0_first (c : Dev nD) : (dat0 V c).Φ 0 = Pipeline.ΦA spec0 c := rfl

/-- After the last point it gives that back: what the scratch holds is forgotten. -/
theorem inv0_last (c : Dev nD) : (dat0 V c).Φ (Fin.last cfg0.N) ⊢ Pipeline.ΦA spec0 c := by
  rw [show (dat0 V c).Φ (Fin.last cfg0.N) = inv0 V c (Fin.last cfg0.N).val from rfl,
    inv0_pos V c _ (by rw [Fin.val_last]; have : cfg0.N = 25 := N_0; omega)]
  iintro ⟨HS, Hr, Hg⟩
  iapply (close0 (F := F) c)
  isplitl [HS]; · iexists _; iexact HS
  isplitl [Hr]; · iexact Hr
  iexact Hg

end Region

end Cert.KernelIdeal.Hand

end
-- ==== Proof.KernelIdeal.Run1.lean ====
/-
  The body of layer 2's kernel, run once at the first grid point and once at a later one.

  At the first point the body multiplies the whole feature matrix by the weight matrix and keeps the
  product `z` in the scratch buffer; at every point it multiplies the point's 400 rows of the
  adjacency matrix by the scratch, adds the bias row, and divides each row by the larger of its
  Euclidean norm and the constant 1e-12, storing the 400 normalised rows.  Both runs leave the input
  buffers as they were; the first leaves the scratch at `z`, the later ones find it there and
  leave it untouched.
-/
import proofs.«160204_g83296595739027_cont_9to1c4b_134_2_alg».proof.Proof.Gen.KernelIdeal.Launch
import proofs.«160204_g83296595739027_cont_9to1c4b_134_2_alg».proof.Proof.Gen.KernelIdeal.Skeleton
import proofs.«160204_g83296595739027_cont_9to1c4b_134_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a whole-buffer access are all zero. -/
theorem zero_off1 : (![0, 0] : Fin 2 → Nat) = fun _ => 0 := by
  funext a; fin_cases a <;> rfl

/-- "This is the first grid point", as the body computes it from the grid coordinate. -/
abbrev first1 (i : grid1.Coords) : Prop :=
  (Scalar.cmpi .ne (Scalar.extui (Scalar.cmpi .eq (BitVec.ofNat 32 (i 0).val) 0#32)) 0#32) = 1#1

/-- It holds at point 0 and at no other of the 25 points. -/
theorem first1_iff : ∀ t : Fin cfg1.N, first1 (grid1.coords t) ↔ t.val = 0 :=
  (by decide +kernel : ∀ t : Fin grid1.N, first1 (grid1.coords t) ↔ t.val = 0)

/-- One whole-buffer store covers the output block. -/
theorem cover_out1 (p : Vec F S400x128 .f32) (y : S400x128.Idx) :
    ∃ pc ∈ ([⟨Rect.unit (s := S400x128) ![0, 0] S400x128.size inb_S400x128_S400x128_0_0, p⟩] : List (View.Piece (Elt F) S400x128 .f32)), y ∈ pc.1.set :=
  ⟨_, List.mem_singleton_self _, View.mem_set_unit_zero zero_off1 inb_S400x128_S400x128_0_0 y⟩

/-- One whole-buffer store covers the scratch. -/
theorem cover_scratch1 (p : Vec F S10000x128 .f32) (y : S10000x128.Idx) :
    ∃ pc ∈ ([⟨Rect.unit (s := S10000x128) ![0, 0] S10000x128.size inb_S10000x128_S10000x128_0_0, p⟩] : List (View.Piece (Elt F) S10000x128 .f32)), y ∈ pc.1.set :=
  ⟨_, List.mem_singleton_self _, View.mem_set_unit_zero zero_off1 inb_S10000x128_S10000x128_0_0 y⟩

set_option maxHeartbeats 1000000 in
/-- A later point: the scratch already holds `z`; the 400 rows `x1` of the adjacency matrix and the bias row
    `x4` give the normalised rows, and nothing else changes. -/
theorem run1_rest (c : Dev nD) (E : Set ℕ) (i : grid1.Coords) (hc : ¬ first1 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S400x128 .f32) (harg5 : arg5.IsWhole) (arg6 : Memref sig .tc .vmem S10000x128 .f32) (harg6 : arg6.IsWhole)
    (x1 : Vec F S400x10000 .f32) (x4 : Vec F S1x128 .f32) (z : Vec F S10000x128 .f32) (K : PUnit → sProp 𝕄) :
    iprop(owns (c : Thread nD τ) arg1 fullShare x1 ∗ owns (c : Thread nD τ) arg4 fullShare x4 ∗ (∃ d, owns (c : Thread nD τ) arg5 fullShare d)
        ∗ owns (c : Thread nD τ) arg6 fullShare z
        ∗ (iprop(owns (c : Thread nD τ) arg1 fullShare x1 ∗ owns (c : Thread nD τ) arg4 fullShare x4
            ∗ owns (c : Thread nD τ) arg5 fullShare (k1_pay2 x1 z x4) ∗ owns (c : Thread nD τ) arg6 fullShare z) -∗ K ⟨⟩))
      ⊢ wp frame (wpE (defs₀ (F := F)) Variants.none c none) E (cc1__layer_body i arg1 harg1 arg2 harg2 arg3 harg3 arg4 harg4 arg5 harg5 arg6 harg6) K := by
  simp only [cc1__layer_body_eq_skeleton]; unfold cc1__layer_body_skel
  unfold owns
  iintro ⟨⟨%f1, %hf1, H1⟩, ⟨%f4, %hf4, H4⟩, ⟨%d5, %f5, -, H5⟩, ⟨%f6, %hf6, H6⟩, Hk⟩
  obtain rfl := harg1.eq_unread hf1; obtain rfl := harg4.eq_unread hf4; obtain rfl := harg6.eq_unread hf6
  sl_exec (disch := first | exact hc)
  sl_step
  iapply Hk
  isplitl [H1]
  · iexists _; isplitr; · ipureintro; exact harg1.read_unread _
    iexact H1
  isplitl [H4]
  · iexists _; isplitr; · ipureintro; exact harg4.read_unread _
    iexact H4
  isplitl [H5]
  · iexists _; isplitr
    swap; · iexact H5
    ipureintro
    rw [View.read_writes_eq_canon _ _ _ (cover_out1 _), View.canon_unit_zero zero_off1]
    simp only [View.readAt_eq_ld, harg1.read_unread, harg4.read_unread, harg6.read_unread,
      View.ld_unit_zero (S := S400x10000) zero_off1, View.ld_unit_zero (S := S1x128) zero_off1,
      View.ld_unit_zero (S := S10000x128) zero_off1]
  iexists _; isplitr; · ipureintro; exact harg6.read_unread _
  iexact H6

set_option maxHeartbeats 4000000 in
/-- The first point: the scratch holds anything; the body stores the product of the feature matrix `x2` and the
    weight matrix `x3` into it, and then computes the first 400 normalised rows from it as at any point. -/
theorem run1_first (c : Dev nD) (E : Set ℕ) (i : grid1.Coords) (hc : first1 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S400x128 .f32) (harg5 : arg5.IsWhole) (arg6 : Memref sig .tc .vmem S10000x128 .f32) (harg6 : arg6.IsWhole)
    (x1 : Vec F S400x10000 .f32) (x2 : Vec F S10000x128 .f32) (x3 : Vec F S128x128 .f32) (x4 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (k1_pay2 x1 (k1_pay1 x2 x3) x4) ∗ owns (c : Thread nD τ) arg6 fullShare (k1_pay1 x2 x3)) -∗ K ⟨⟩))
      ⊢ wp frame (wpE (defs₀ (F := F)) Variants.none c none) E (cc1__layer_body i arg1 harg1 arg2 harg2 arg3 harg3 arg4 harg4 arg5 harg5 arg6 harg6) K := by
  simp only [cc1__layer_body_eq_skeleton]; unfold cc1__layer_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2; obtain rfl := harg3.eq_unread hf3; obtain rfl := harg4.eq_unread hf4
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover_out1 _), View.canon_unit_zero zero_off1]
    refine congr (congr (congrArg k1_pay2 ?_) ?_) ?_
    · rw [View.readAt_eq_ld, harg1.read_unread, View.ld_unit_zero (S := S400x10000) zero_off1]
    · sl_unfold_run_names
      refine (View.readCov_unit_zero (S := S10000x128) arg6.view zero_off1 inb_S10000x128_S10000x128_0_0 _).trans ?_
      refine congr (congrArg k1_pay1 ?_) ?_
      · rw [View.readAt_eq_ld, harg2.read_unread, View.ld_unit_zero (S := S10000x128) zero_off1]
      · rw [View.readAt_eq_ld, harg3.read_unread, View.ld_unit_zero (S := S128x128) zero_off1]
    · rw [View.readAt_eq_ld, harg4.read_unread, View.ld_unit_zero (S := S1x128) zero_off1]
  iexists _; isplitr
  swap; · iexact H6
  ipureintro
  sl_unfold_run_names
  rw [View.read_writes_eq_canon _ _ _ (cover_scratch1 _), View.canon_unit_zero zero_off1]
  refine congr (congrArg k1_pay1 ?_) ?_
  · rw [View.readAt_eq_ld, harg2.read_unread, View.ld_unit_zero (S := S10000x128) zero_off1]
  · rw [View.readAt_eq_ld, harg3.read_unread, View.ld_unit_zero (S := S128x128) zero_off1]

end Cert.KernelIdeal.Hand

end
-- ==== Proof.KernelIdeal.Region1.lean ====
/-
  Layer 2's kernel as one region of the program: what each of its 25 grid points finds and leaves.

  The region streams the adjacency matrix in 25 stripes of 400 rows (window 0), keeps the feature matrix,
  the weight matrix and the bias row in place (windows 1, 2, 3: one block each, the whole array), and writes
  400 rows of the result per point (window 4).  The scratch buffer is not staged by the pipeline: before the
  first point it holds anything; the first point stores the product of the feature and weight matrices
  there, and every later point finds that same product.  So the region's invariant after the first point is
  "the scratch holds that product", and point `t` leaves in the output block the 400 normalised rows
  computed from stripe `t`, the product and the bias row.
-/
import proofs.«160204_g83296595739027_cont_9to1c4b_134_2_alg».proof.Proof.KernelIdeal.Run1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

-- the buffer contents of the core when the region is entered
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds its block at every point, fetched there or not. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current staging buffer holds its block at every point, fetched there or not. -/
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's current staging buffer holds its block at every point, fetched there or not. -/
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The first grid point. -/
abbrev pt0_1 : Fin cfg1.N := ⟨0, by decide⟩

/-- The scratch operand, a whole buffer of the kernel's own. -/
abbrev scM1 : Memref sig .tc .vmem S10000x128 .f32 := Memref.whole cc1_scratch0

/-- What the scratch holds from the first point on: the feature matrix times the weight matrix. -/
def scr1 (c : Dev nD) : Vec F S10000x128 .f32 := k1_pay1 (blk1 V c 1 pt0_1) (blk1 V c 2 pt0_1)

/-- What point `t` leaves in the output block: the normalised rows of stripe `t`. -/
def rows1 (c : Dev nD) (t : Fin cfg1.N) : Vec F S400x128 .f32 := k1_pay2 (blk1 V c 0 t) (scr1 V c) (blk1 V c 3 t)

/-- The scoped buffers the region does not use (the other region's staging buffers and scratch), at anything. -/
abbrev others1 (c : Dev nD) : sProp 𝕄 :=
  Pipeline.scopedRestBut (Ix := Unit) (Name := ℕ) (U := UR sig nD τ) (Lvl := ℕ) (Val := Elt F) spec1 c [cc1_scratch0]

/-- The region's invariant before position `n`: before the first point the scratch holds anything; afterwards the product. -/
def inv1 (c : Dev nD) : ℕ → sProp 𝕄
  | 0 => Pipeline.ΦA spec1 c
  | _ + 1 => iprop(owns (c : Thread nD τ) scM1 fullShare (scr1 V c) ∗ others1 c ∗ ∃ r, prngReg c r)

theorem inv1_pos (c : Dev nD) (n : ℕ) (hn : n ≠ 0) :
    inv1 V c n = iprop(owns (c : Thread nD τ) scM1 fullShare (scr1 V c) ∗ others1 c ∗ ∃ r, prngReg c r) := by
  cases n with
  | zero => exact absurd rfl hn
  | succ n => rfl

/-- The scoped buffers no window stages are the scratch and the others. -/
theorem rest_split1 (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ others1 (F := F) c) := by
  rw [Pipeline.scopedRest_split_of_list spec1 c [cc1_scratch0] (by decide) (by decide)]
  simp only [scM1, owns_whole]
  rfl

/-- The invariant before the first point, opened: the scratch at anything, the others, the generator register. -/
theorem open1 (c : Dev nD) :
    (Pipeline.ΦA spec1 c : sProp 𝕄) ⊢ iprop((∃ d, owns (c : Thread nD τ) scM1 fullShare d) ∗ others1 (F := F) c ∗ ∃ r, prngReg c r) := by
  unfold Pipeline.ΦA; rw [rest_split1]
  iintro ⟨⟨HS, Hr⟩, Hg⟩
  isplitl [HS]; · iexact HS
  isplitl [Hr]; · iexact Hr
  iexact Hg

/-- And closed again, whatever the scratch holds. -/
theorem close1 (c : Dev nD) :
    iprop((∃ d, owns (c : Thread nD τ) scM1 fullShare d) ∗ others1 (F := F) c ∗ ∃ r, prngReg c r) ⊢ (Pipeline.ΦA spec1 c : sProp 𝕄) := by
  unfold Pipeline.ΦA; rw [rest_split1]
  iintro ⟨HS, Hr, Hg⟩
  isplitl [HS Hr]
  · isplitl [HS]; · iexact HS
    iexact Hr
  iexact Hg

/-- The proof data of the region on core `c`: the arrays as the region finds them; after the body each input's buffer
    at its block and the output's at the point's normalised rows; the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => rows1 V c t
  Φ t := inv1 V c t.val
  q _ := fullShare
  owed _ := 0

theorem arr1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = rows1 V c t := by dsimp only [dat1]

theorem before1_0 (c : Dev nD) (t : Fin cfg1.N) (d) : (dat1 V c).before 0 t d = blk1 V c 0 t :=
  found1_0 V (dat1 V c) (arr1 V c 0) (after1_0 V c) t d
theorem before1_1 (c : Dev nD) (t : Fin cfg1.N) (d) : (dat1 V c).before 1 t d = blk1 V c 1 t :=
  found1_1 V (dat1 V c) (arr1 V c 1) (after1_1 V c) t d
theorem before1_2 (c : Dev nD) (t : Fin cfg1.N) (d) : (dat1 V c).before 2 t d = blk1 V c 2 t :=
  found1_2 V (dat1 V c) (arr1 V c 2) (after1_2 V c) t d
theorem before1_3 (c : Dev nD) (t : Fin cfg1.N) (d) : (dat1 V c).before 3 t d = blk1 V c 3 t :=
  found1_3 V (dat1 V c) (arr1 V c 3) (after1_3 V c) t d

theorem inv1_start (c : Dev nD) (t : Fin cfg1.N) : (dat1 V c).Φ t.castSucc = inv1 V c t.val := by
  dsimp only [dat1]; simp only [Fin.coe_castSucc]

theorem inv1_end (c : Dev nD) (t : Fin cfg1.N) :
    (dat1 V c).Φ t.succ = iprop(owns (c : Thread nD τ) scM1 fullShare (scr1 V c) ∗ others1 c ∗ ∃ r, prngReg c r) := rfl

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: the inputs' buffers hold their blocks; at the first point the scratch holds anything and
    is left at the product, at a later point it holds the product and is left alone; the output's buffer ends at the
    point's normalised rows; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4, inv1_start, inv1_end]
  by_cases hz : t.val = 0
  · obtain rfl : t = pt0_1 := Fin.ext hz
    rw [show inv1 V c (pt0_1 : Fin cfg1.N).val = Pipeline.ΦA spec1 c from rfl]
    iintro ⟨HΦ, Ho, ⟨%d0, H0⟩, ⟨%d1, H1⟩, ⟨%d2, H2⟩, ⟨%d3, H3⟩, ⟨%d4, H4⟩⟩
    ihave HΦ' := (open1 (F := F) c) $$ HΦ
    icases HΦ' with ⟨HS, Hr, Hg⟩
    iapply (run1_first c Set.univ (grid1.coords pt0_1) ((first1_iff pt0_1).mpr rfl) _ _ _ _ _ _ _ _ _ _ _ _
      (blk1 V c 0 pt0_1) (blk1 V c 1 pt0_1) (blk1 V c 2 pt0_1) (blk1 V c 3 pt0_1) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [inv1_pos V c _ hz]
    iintro ⟨⟨HS, Hr, Hg⟩, Ho, ⟨%d0, H0⟩, ⟨%d1, H1⟩, ⟨%d2, H2⟩, ⟨%d3, H3⟩, ⟨%d4, H4⟩⟩
    iapply (run1_rest c Set.univ (grid1.coords t) (fun h => hz ((first1_iff t).mp h)) _ _ _ _ _ _ _ _ _ _ _ _
      (blk1 V c 0 t) (blk1 V c 3 t) (scr1 V c) _)
    isplitl [H0]; · iexact H0
    isplitl [H3]; · iexact H3
    isplitl [H4]; · iexists _; iexact H4
    isplitl [HS]; · iexact HS
    iintro ⟨H0, H3, H4, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the plain one: every scoped buffer no window stages at anything, the generator
    register at some state. -/
theorem inv1_first (c : Dev nD) : (dat1 V c).Φ 0 = Pipeline.ΦA spec1 c := rfl

/-- After the last point it gives that back: what the scratch holds is forgotten. -/
theorem inv1_last (c : Dev nD) : (dat1 V c).Φ (Fin.last cfg1.N) ⊢ Pipeline.ΦA spec1 c := by
  rw [show (dat1 V c).Φ (Fin.last cfg1.N) = inv1 V c (Fin.last cfg1.N).val from rfl,
    inv1_pos V c _ (by rw [Fin.val_last]; have : cfg1.N = 25 := N_1; omega)]
  iintro ⟨HS, Hr, Hg⟩
  iapply (close1 (F := F) c)
  isplitl [HS]; · iexists _; iexact HS
  isplitl [Hr]; · iexact Hr
  iexact Hg

end Region

end Cert.KernelIdeal.Hand

end
-- ==== Proof.KernelIdeal.Frame.lean ====
/-
  The whole program as four items in a row — the first bias row's reshape, layer 1's region, the second bias row's
  reshape, layer 2's region — and what the memory holds between them.

  Before an item every unscoped buffer holds a named contents: the launch memory; then the reshape's result beside it;
  then, after a region, that region's output array at what its 25 write-backs leave and every other buffer as it was;
  and so on.  Every execution terminates with every unscoped buffer at the last of these contents.  No item writes an
  argument array, so each argument reads back as launched, and the program's result array reads back as what layer 2's
  write-backs leave.
-/
import proofs.«160204_g83296595739027_cont_9to1c4b_134_2_alg».proof.Proof.KernelIdeal.Region0
import proofs.«160204_g83296595739027_cont_9to1c4b_134_2_alg».proof.Proof.KernelIdeal.Region1
import proofs.«160204_g83296595739027_cont_9to1c4b_134_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- At launch. -/
abbrev mem0 : Dev nD → Valuation τ sig (Elt F) := fun c b => m ((c : Dev nD), b)
/-- After the first reshape: layer 1's entry. -/
abbrev mem1 : Dev nD → Valuation τ sig (Elt F) := fun c => StableHlo.after hostOps0 (mem0 m c)
abbrev ent0 : (c : Dev nD) → (b : Ref sig .tc) → Buf (Elt F) ((c : Thread nD τ).loc b) := fun c b => mem1 m c b
/-- After layer 1: its arrays at what the pipeline leaves, every other buffer as entered. -/
def mem2 (c : Dev nD) : Valuation τ sig (Elt F) :=
  Pipeline.withArrays spec0 c (mem1 m c) fun w => (dat0 (ent0 m) c).arrAt w cfg0.N
theorem mem2_arr (c : Dev nD) (w : Fin cfg0.W) :
    mem2 m c (Proc.devRef .tc (Pipeline.arrRef spec0 w)) = (dat0 (ent0 m) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m c (Proc.devRef .tc b) = mem1 m c (Proc.devRef .tc b) := by
  unfold mem2; exact Pipeline.withArrays_of_ne spec0 c _ _ b hb
/-- An input window's array leaves layer 1 as it entered. -/
theorem mem2_in (c : Dev nD) (w : Fin cfg0.W) (hw : (cfg0.win w).isOut = false) :
    mem2 m c (Proc.devRef .tc (Pipeline.arrRef spec0 w)) = mem1 m c (Proc.devRef .tc (Pipeline.arrRef spec0 w)) :=
  (mem2_arr m c w).trans (((dat0 (ent0 m) c).arrAt_in w hw _).trans (arr0 (ent0 m) c w))
abbrev ext0 : (c : Dev nD) → (b : Ref sig .tc) → Buf (Elt F) ((c : Thread nD τ).loc b) := fun c b => mem2 m c b
theorem left0 (c : Dev nD) (w : Fin cfg0.W) : (dat0 (ent0 m) c).arrAt w cfg0.N = ext0 m c (Pipeline.arrRef spec0 w) :=
  (mem2_arr m c w).symm
theorem kept0 (c : Dev nD) : ∀ b, b ∉ Finset.univ.image (Pipeline.arrRef spec0) → ext0 m c b = ent0 m c b :=
  fun b hb => mem2_of_ne m c b fun w e => hb (Finset.mem_image.mpr ⟨w, Finset.mem_univ _, e⟩)

/-- After the second reshape: layer 2's entry. -/
abbrev mem3 : Dev nD → Valuation τ sig (Elt F) := fun c => StableHlo.after hostOps1 (mem2 m c)
abbrev ent1 : (c : Dev nD) → (b : Ref sig .tc) → Buf (Elt F) ((c : Thread nD τ).loc b) := fun c b => mem3 m c b
/-- After layer 2. -/
def mem4 (c : Dev nD) : Valuation τ sig (Elt F) :=
  Pipeline.withArrays spec1 c (mem3 m c) fun w => (dat1 (ent1 m) c).arrAt w cfg1.N
theorem mem4_arr (c : Dev nD) (w : Fin cfg1.W) :
    mem4 m c (Proc.devRef .tc (Pipeline.arrRef spec1 w)) = (dat1 (ent1 m) c).arrAt w cfg1.N := by
  unfold mem4; exact Pipeline.withArrays_arr spec1 launch1.win.arr_inj c _ _ w
theorem mem4_of_ne (c : Dev nD) (b : Ref sig .tc) (hb : ∀ w, Pipeline.arrRef spec1 w ≠ b) :
    mem4 m c (Proc.devRef .tc b) = mem3 m c (Proc.devRef .tc b) := by
  unfold mem4; exact Pipeline.withArrays_of_ne spec1 c _ _ b hb
theorem mem4_in (c : Dev nD) (w : Fin cfg1.W) (hw : (cfg1.win w).isOut = false) :
    mem4 m c (Proc.devRef .tc (Pipeline.arrRef spec1 w)) = mem3 m c (Proc.devRef .tc (Pipeline.arrRef spec1 w)) :=
  (mem4_arr m c w).trans (((dat1 (ent1 m) c).arrAt_in w hw _).trans (arr1 (ent1 m) c w))
abbrev ext1 : (c : Dev nD) → (b : Ref sig .tc) → Buf (Elt F) ((c : Thread nD τ).loc b) := fun c b => mem4 m c b
theorem left1 (c : Dev nD) (w : Fin cfg1.W) : (dat1 (ent1 m) c).arrAt w cfg1.N = ext1 m c (Pipeline.arrRef spec1 w) :=
  (mem4_arr m c w).symm
theorem kept1 (c : Dev nD) : ∀ b, b ∉ Finset.univ.image (Pipeline.arrRef spec1) → ext1 m c b = ent1 m c b :=
  fun b hb => mem4_of_ne m c b fun w e => hb (Finset.mem_image.mpr ⟨w, Finset.mem_univ _, e⟩)

/-! ## The arguments end as launched -/

/-- `main_arg0` reaches the end as launched: no host operation writes it, and a region reads it at most. -/
theorem end_main_arg0 (c : Dev nD) : mem4 m c (Proc.devRef .tc main_arg0) = m ((c : Thread nD τ).loc main_arg0) :=
  calc mem4 m c (Proc.devRef .tc main_arg0)
    _ = mem3 m c (Proc.devRef .tc main_arg0) := mem4_of_ne m c main_arg0 (by decide)
    _ = mem2 m c (Proc.devRef .tc main_arg0) := StableHlo.after_of_writes_sub hostOps1 _ hostOps1_writes (by decide : main_arg0 ∉ hostOps1_W)
    _ = mem1 m c (Proc.devRef .tc main_arg0) := mem2_in m c 1 rfl
    _ = mem0 m c (Proc.devRef .tc main_arg0) := StableHlo.after_of_writes_sub hostOps0 _ hostOps0_writes (by decide : main_arg0 ∉ hostOps0_W)
    _ = m ((c : Thread nD τ).loc main_arg0) := rfl

/-- `main_arg1` reaches the end as launched: no host operation writes it, and a region reads it at most. -/
theorem end_main_arg1 (c : Dev nD) : mem4 m c (Proc.devRef .tc main_arg1) = m ((c : Thread nD τ).loc main_arg1) :=
  calc mem4 m c (Proc.devRef .tc main_arg1)
    _ = mem3 m c (Proc.devRef .tc main_arg1) := mem4_in m c 0 rfl
    _ = mem2 m c (Proc.devRef .tc main_arg1) := StableHlo.after_of_writes_sub hostOps1 _ hostOps1_writes (by decide : main_arg1 ∉ hostOps1_W)
    _ = mem1 m c (Proc.devRef .tc main_arg1) := mem2_in m c 0 rfl
    _ = mem0 m c (Proc.devRef .tc main_arg1) := StableHlo.after_of_writes_sub hostOps0 _ hostOps0_writes (by decide : main_arg1 ∉ hostOps0_W)
    _ = m ((c : Thread nD τ).loc main_arg1) := rfl

/-- `main_arg2` reaches the end as launched: no host operation writes it, and a region reads it at most. -/
theorem end_main_arg2 (c : Dev nD) : mem4 m c (Proc.devRef .tc main_arg2) = m ((c : Thread nD τ).loc main_arg2) :=
  calc mem4 m c (Proc.devRef .tc main_arg2)
    _ = mem3 m c (Proc.devRef .tc main_arg2) := mem4_of_ne m c main_arg2 (by decide)
    _ = mem2 m c (Proc.devRef .tc main_arg2) := StableHlo.after_of_writes_sub hostOps1 _ hostOps1_writes (by decide : main_arg2 ∉ hostOps1_W)
    _ = mem1 m c (Proc.devRef .tc main_arg2) := mem2_in m c 2 rfl
    _ = mem0 m c (Proc.devRef .tc main_arg2) := StableHlo.after_of_writes_sub hostOps0 _ hostOps0_writes (by decide : main_arg2 ∉ hostOps0_W)
    _ = m ((c : Thread nD τ).loc main_arg2) := rfl

/-- `main_arg3` reaches the end as launched: no host operation writes it, and a region reads it at most. -/
theorem end_main_arg3 (c : Dev nD) : mem4 m c (Proc.devRef .tc main_arg3) = m ((c : Thread nD τ).loc main_arg3) :=
  calc mem4 m c (Proc.devRef .tc main_arg3)
    _ = mem3 m c (Proc.devRef .tc main_arg3) := mem4_of_ne m c main_arg3 (by decide)
    _ = mem2 m c (Proc.devRef .tc main_arg3) := StableHlo.after_of_writes_sub hostOps1 _ hostOps1_writes (by decide : main_arg3 ∉ hostOps1_W)
    _ = mem1 m c (Proc.devRef .tc main_arg3) := mem2_of_ne m c main_arg3 (by decide)
    _ = mem0 m c (Proc.devRef .tc main_arg3) := StableHlo.after_of_writes_sub hostOps0 _ hostOps0_writes (by decide : main_arg3 ∉ hostOps0_W)
    _ = m ((c : Thread nD τ).loc main_arg3) := rfl

/-- `main_arg4` reaches the end as launched: no host operation writes it, and a region reads it at most. -/
theorem end_main_arg4 (c : Dev nD) : mem4 m c (Proc.devRef .tc main_arg4) = m ((c : Thread nD τ).loc main_arg4) :=
  calc mem4 m c (Proc.devRef .tc main_arg4)
    _ = mem3 m c (Proc.devRef .tc main_arg4) := mem4_in m c 2 rfl
    _ = mem2 m c (Proc.devRef .tc main_arg4) := StableHlo.after_of_writes_sub hostOps1 _ hostOps1_writes (by decide : main_arg4 ∉ hostOps1_W)
    _ = mem1 m c (Proc.devRef .tc main_arg4) := mem2_of_ne m c main_arg4 (by decide)
    _ = mem0 m c (Proc.devRef .tc main_arg4) := StableHlo.after_of_writes_sub hostOps0 _ hostOps0_writes (by decide : main_arg4 ∉ hostOps0_W)
    _ = m ((c : Thread nD τ).loc main_arg4) := rfl

/-- `main_arg5` reaches the end as launched: no host operation writes it, and a region reads it at most. -/
theorem end_main_arg5 (c : Dev nD) : mem4 m c (Proc.devRef .tc main_arg5) = m ((c : Thread nD τ).loc main_arg5) :=
  calc mem4 m c (Proc.devRef .tc main_arg5)
    _ = mem3 m c (Proc.devRef .tc main_arg5) := mem4_of_ne m c main_arg5 (by decide)
    _ = mem2 m c (Proc.devRef .tc main_arg5) := StableHlo.after_of_writes_sub hostOps1 _ hostOps1_writes (by decide : main_arg5 ∉ hostOps1_W)
    _ = mem1 m c (Proc.devRef .tc main_arg5) := mem2_of_ne m c main_arg5 (by decide)
    _ = mem0 m c (Proc.devRef .tc main_arg5) := StableHlo.after_of_writes_sub hostOps0 _ hostOps0_writes (by decide : main_arg5 ∉ hostOps0_W)
    _ = m ((c : Thread nD τ).loc main_arg5) := rfl

/-! ## The proof data family and the thread state -/

/-- No region has a prefetched table. -/
abbrev tables : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) tables p) c
  | ⟨0, _⟩ => fun c => dat0 (ent0 m) c
  | ⟨1, _⟩ => fun c => dat1 (ent1 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last contents, the generator register at some state. -/
abbrev Tₙ (c : Dev nD) : sProp 𝕄 := iprop(StableHlo.held (c : Thread nD τ) (Pipeline.ucRefs τ sig) (mem4 m c) ∗ ∃ r, prngReg c r)

/-! ## The regions as items -/

set_option backward.isDefEq.respectTransparency.types false in
/-- Layer 1's region over the thread state: entered from every unscoped buffer at its contents before the region, left
    with the region's arrays at what the write-backs leave.  Its arrays are split out of the unscoped buffers and put back
    at the end; the generator register and the scoped rest go into the invariant and come out of it; nothing is owed. -/
def reg0 : Pipeline.RegionSeg (pcfgs (F := F)) tables (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (mem1 m c) ∗ R c)
  post c := iprop(StableHlo.held (c : Thread nD τ) (Pipeline.ucRefs τ sig) (mem2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) tables (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from inv0_last (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered from every unscoped buffer at its contents before the region, left
    with the region's arrays at what the write-backs leave.  Its arrays are split out of the unscoped buffers and put back
    at the end; the generator register and the scoped rest go into the invariant and come out of it; nothing is owed. -/
def reg1 : Pipeline.RegionSeg (pcfgs (F := F)) tables (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (mem3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) tables (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from inv1_last (ent1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev segs : List (Pipeline.Seg (pcfgs (F := F)) tables (pdats m) () defs₀ 𝒱₀ L lv) :=
  [ .host (hseg hostOps0 hostOps0_sub hostOps0_fresh (mem0 m)),
    .region (reg0 m),
    .host (hseg hostOps1 hostOps1_sub hostOps1_fresh (mem2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = mem4 m c b) :=
  Pipeline.θ_run_regions_kit (pcfgs (F := F)) tables (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem4 m c b)
    (hfin := fun c s' => by
      iintro ⟨⟨Hh, -⟩, HSI⟩
      unfold StableHlo.held
      imodintro
      iapply (pointsTo_read_all (Pipeline.ucRefs τ sig) (fun b => (((c : Thread nD τ)).1, b)) (mem4 m c) s')
      isplitl [Hh] <;> iassumption)
    (hQ := fun s h c => h c)

/-- The same run read at the program's result and its arguments: the result array ends at what layer 2's write-backs
    leave, every argument as launched. -/
theorem run_result : θ_run defs (onTc (τ := τ) (main (F := F))) ⟨m, fun _ => 0, ρ⟩ (fun r => ∀ c : Dev nD,
      r.2.mem ((c.tc : Thread nD τ).loc main_v3) = (dat1 (ent1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v3 (by decide))).trans (mem4_arr m c 4),
     (h c _ (mem_uc main_arg0 (by decide))).trans (end_main_arg0 m c),
     (h c _ (mem_uc main_arg1 (by decide))).trans (end_main_arg1 m c),
     (h c _ (mem_uc main_arg2 (by decide))).trans (end_main_arg2 m c),
     (h c _ (mem_uc main_arg3 (by decide))).trans (end_main_arg3 m c),
     (h c _ (mem_uc main_arg4 (by decide))).trans (end_main_arg4 m c),
     (h c _ (mem_uc main_arg5 (by decide))).trans (end_main_arg5 m c)⟩) (run_all m ρ)

/-- The frame: every execution terminates, faults nowhere, and leaves the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_result m ρ)

end Cert.KernelIdeal.Hand

end
-- ==== Proof.GcnSpec.lean ====
/-
  One layer of the graph network, as mathematics on the extended reals.

  For an adjacency matrix `adj` (10000 × 10000), features `h` (10000 × 128), weights `W` (128 × 128) and a bias
  `b` (128), the layer's affine part at row `r`, column `j` is `Σₖ adj r k · (Σ_q h k q · W q j) + b j`, and the layer
  divides each row of it by the larger of the row's Euclidean norm and the constant 1e-12 (as the f32 word
  0x2B8CBCCC reads).
-/
import Idealize.ShloMosaic.PureOps.Ideal
import Idealize.ShloMosaic.PureOps.Ideal.Laws
import Idealize.ShloMosaic.Lib.ValueIdx

noncomputable section

open scoped BigOperators

namespace Cert.Gcn

open Idealize.ShloMosaic

/-- The floor of a row's norm. -/
def floor : EReal := Ideal.ofBits .f32 0x2B8CBCCC#32

/-- A row `y` divided by the larger of its Euclidean norm and the floor, at column `j`. -/
def normRow (y : Fin 128 → EReal) (j : Fin 128) : EReal :=
  Ideal.div (y j) (max (Ideal.sqrt (∑ j' : Fin 128, y j' * y j')) floor)

/-- The layer's affine part, `adj · (h · W) + b`, at row `r` and column `j`. -/
def lin (adj : Fin 10000 → Fin 10000 → EReal) (h : Fin 10000 → Fin 128 → EReal) (W : Fin 128 → Fin 128 → EReal)
    (b : Fin 128 → EReal) (r : Fin 10000) (j : Fin 128) : EReal :=
  (∑ k : Fin 10000, adj r k * ∑ q : Fin 128, h k q * W q j) + b j

/-- The layer: each row of the affine part, normalised. -/
def layer (adj : Fin 10000 → Fin 10000 → EReal) (h : Fin 10000 → Fin 128 → EReal) (W : Fin 128 → Fin 128 → EReal)
    (b : Fin 128 → EReal) (r : Fin 10000) (j : Fin 128) : EReal :=
  normRow (lin adj h W b r) j

/-- A 10000 × 128 array's row coordinate as a number below 10000, -/
abbrev row (i : (⟨2, ![10000, 128]⟩ : Shape).Idx) : Fin 10000 := ⟨(i 0).val, (i 0).isLt⟩
/-- and its column coordinate as a number below 128. -/
abbrev col (i : (⟨2, ![10000, 128]⟩ : Shape).Idx) : Fin 128 := ⟨(i 1).val, (i 1).isLt⟩

/-- One layer as an array: from the adjacency, feature and weight matrices as arrays and the bias as a function of the column. -/
def layerArr (adj : (⟨2, ![10000, 10000]⟩ : Shape).Idx → EReal) (h : (⟨2, ![10000, 128]⟩ : Shape).Idx → EReal)
    (W : (⟨2, ![128, 128]⟩ : Shape).Idx → EReal) (b : Fin 128 → EReal) : (⟨2, ![10000, 128]⟩ : Shape).Idx → EReal :=
  fun i => layer (fun r k => adj (ValueIdx.ix2 r k)) (fun k q => h (ValueIdx.ix2 k q)) (fun q j => W (ValueIdx.ix2 q j)) b (row i) (col i)

end Cert.Gcn

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.KernelIdeal.Payload.lean ====
/-
  The two payloads of each layer's kernel body, read entry by entry on the extended reals.

  The scratch payload is a plain 10000×128 by 128×128 product.  The output payload, for 400 rows `x1` of the
  adjacency matrix, a 10000×128 matrix `z` and a bias row `x4`, is at `(p, j)` the row
  `j' ↦ Σₖ x1 p k · z k j' + x4 0 j'` divided by the larger of its norm and the floor, at column `j`: the lane sum
  of squares is the row's sum, the column casts and broadcasts only re-lay it.
-/
import proofs.«160204_g83296595739027_cont_9to1c4b_134_2_alg».proof.Proof.Gen.KernelIdeal.Skeleton
import proofs.«160204_g83296595739027_cont_9to1c4b_134_2_alg».proof.Proof.GcnSpec
import proofs.«160204_g83296595739027_cont_9to1c4b_134_2_alg».proof.Proof.LibKeepdims
import proofs.«160204_g83296595739027_cont_9to1c4b_134_2_alg».proof.Proof.LibPlainDot
import Idealize.ShloMosaic.Lib.ValueIdx
import Idealize.ShloMosaic.Lib.ValueLayout
import Idealize.ShloMosaic.Lib.Pipeline.Value

noncomputable section

open scoped BigOperators

namespace Cert.KernelIdeal.Hand

open Idealize.ShloMosaic Idealize.ShloMosaic.ValueIdx Idealize.ShloMosaic.ValueKeepdims
open Cert.KernelIdeal Cert.KernelIdeal.Gen

section Scratch

variable (x2 : FVec Ideal S10000x128 .f32) (x3 : FVec Ideal S128x128 .f32)

/-- Layer 1's scratch payload at `(k, j)`: the product's entry. -/
theorem pay1_0_apply (k : Fin 10000) (j : Fin 128) :
    k0_pay1 (F := Ideal) x2 x3 (ix2 k j) = ∑ q : Fin 128, x2 (ix2 k q) * x3 (ix2 q j) := by
  unfold k0_pay1
  simp only [shapeCast_self]
  exact Cert.Lib.PlainDot.matmul_zero_apply none x2 x3 k j

/-- Layer 2's scratch payload at `(k, j)`: the same product (its operand passes through a cast to its own shape). -/
theorem pay1_1_apply (k : Fin 10000) (j : Fin 128) :
    k1_pay1 (F := Ideal) x2 x3 (ix2 k j) = ∑ q : Fin 128, x2 (ix2 k q) * x3 (ix2 q j) := by
  unfold k1_pay1
  simp only [shapeCast_self]
  exact Cert.Lib.PlainDot.matmul_zero_apply none x2 x3 k j

end Scratch

section Rows

variable (x1 : FVec Ideal S400x10000 .f32) (z : FVec Ideal S10000x128 .f32) (x4 : FVec Ideal S1x128 .f32)

/-- The affine part of the 400 rows: the stripe times `z`, plus the bias row under every row. -/
def aff : FVec Ideal S400x128 .f32 :=
  addf (matmul dot_S400x10000_S10000x128_S400x128_1_0_0_1_n_n none x1 z (constant S400x128 .f32 0x00000000#32))
    (broadcastTo S400x128 (shapeCast S1x128 x4 Facts₀.shapeCasts_S1x128_S1x128) Facts₀.broadcasts_S1x128_S400x128)

theorem aff_apply (p : Fin 400) (j : Fin 128) :
    aff x1 z x4 (ix2 p j) = (∑ k : Fin 10000, x1 (ix2 p k) * z (ix2 k j)) + x4 (ix2 (0 : Fin 1) j) := by
  unfold aff
  refine (addf_apply _ _ _).trans ?_
  refine congr (congrArg HAdd.hAdd ?_) ?_
  · exact Cert.Lib.PlainDot.matmul_zero_apply none x1 z p j
  · refine (broadcastTo_1b_ab_apply _ Facts₀.broadcasts_S1x128_S400x128 p j).trans ?_
    rw [shapeCast_self]

/-- The normalised rows from the affine part `y`: each entry over the floored norm of its row. -/
def normed (y : FVec Ideal S400x128 .f32) : FVec Ideal S400x128 .f32 :=
  divf y (broadcastTo S400x128 (maximumf (sqrt (shapeCast S400x1
      (multiReduction .add [1] S400 (mulf y y) 0x00000000#32 Facts₀.reduces_S400x128_S400 (.inl rfl) rfl) Facts₀.shapeCasts_S400_S400x1))
    (broadcast S400x1 (Scalar.ofBits .f32 0x2B8CBCCC#32))) Facts₀.broadcasts_S400x1_S400x128)

theorem normed_apply (y : FVec Ideal S400x128 .f32) (p : Fin 400) (j : Fin 128) :
    normed y (ix2 p j) = Cert.Gcn.normRow (fun j' => y (ix2 p j')) j := by
  unfold normed Cert.Gcn.normRow
  refine (divf_apply _ _ _).trans ?_
  refine congrArg (Ideal.div (y (ix2 p j))) ?_
  refine (broadcastTo_a1_ab_apply _ Facts₀.broadcasts_S400x1_S400x128 p j).trans ?_
  refine (maximumf_apply _ _ _).trans ?_
  refine congr (congrArg max ?_) rfl
  show Ideal.sqrt (shapeCast S400x1 _ Facts₀.shapeCasts_S400_S400x1 (ix2 p (0 : Fin 1))) = _
  refine congrArg Ideal.sqrt ?_
  refine (shapeCast_a_a1_apply _ Facts₀.shapeCasts_S400_S400x1 p (0 : Fin 1)).trans ?_
  exact multiReduction_add_row (mulf y y) 0x00000000#32 Facts₀.reduces_S400x128_S400 (.inl rfl) rfl p

/-- Layer 1's output payload is the normalised affine part. -/
theorem pay2_0_eq : k0_pay2 (F := Ideal) x1 z x4 = normed (aff x1 z x4) := rfl

/-- Layer 2's likewise. -/
theorem pay2_1_eq : k1_pay2 (F := Ideal) x1 z x4 = normed (aff x1 z x4) := rfl

/-- Either layer's output payload at `(p, j)`. -/
theorem rows_apply (p : Fin 400) (j : Fin 128) :
    normed (aff x1 z x4) (ix2 p j)
      = Cert.Gcn.normRow (fun j' => (∑ k : Fin 10000, x1 (ix2 p k) * z (ix2 k j')) + x4 (ix2 (0 : Fin 1) j')) j := by
  rw [normed_apply]
  exact congrArg (fun y => Cert.Gcn.normRow y j) (funext fun j' => aff_apply x1 z x4 p j')

end Rows

end Cert.KernelIdeal.Hand

end
-- ==== Proof.KernelIdeal.Blocks0.lean ====
/-
  Layer 1's result array after its region: the 25 blocks of 400 rows written back, put together.

  Point `t` reads rows `400·t … 400·t + 399` of the adjacency matrix and the whole of the other three operands,
  and writes back rows `400·t … 400·t + 399` of the result; the 25 blocks tile the result array.  Row `400·t + p`
  of what point `t` writes is the layer's formula at that row of the arrays the region was entered with, so the
  array ends holding the layer of those arrays.
-/
import proofs.«160204_g83296595739027_cont_9to1c4b_134_2_alg».proof.Proof.KernelIdeal.Region0
import proofs.«160204_g83296595739027_cont_9to1c4b_134_2_alg».proof.Proof.KernelIdeal.Payload

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

section Blocks0

variable (V : (c : Dev nD) → (b : Ref sig .tc) → Buf (Elt Ideal) ((c : Thread nD τ).loc b))

/-- Where each window's block sits at point `t`, decided over the 25 points: the adjacency stripe and the result block at
    block row `t`, every other block at the array's origin. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The adjacency stripe at point `t`, entry `(p, k)`: the matrix at row `400·t + p`. -/
theorem stripe0_apply (c : Dev nD) (t : Fin cfg0.N) (p : Fin 400) (k : Fin 10000) (r : Fin 10000) (hr : r.val = t.val * 400 + p.val) :
    blk0 V c 0 t (ix2 p k) = V c main_arg1 (ix2 r k) := by
  show V c main_arg1 (((cfg0.win 0).blk t).view.emb (ix2 p k)) = V c main_arg1 (ix2 r k)
  refine congrArg (V c main_arg1) (funext fun a => Fin.ext ?_)
  obtain ⟨e0, e1, -⟩ := where0 t
  match a with
  | ⟨0, _⟩ => show win0_0.index t (0 : Fin 2) * 400 + 1 * p.val = r.val; omega
  | ⟨1, _⟩ => show win0_0.index t (1 : Fin 2) * 10000 + 1 * k.val = k.val; omega

/-- The feature block is the whole feature matrix. -/
theorem feat0_apply (c : Dev nD) (t : Fin cfg0.N) (k : Fin 10000) (q : Fin 128) :
    blk0 V c 1 t (ix2 k q) = V c main_arg0 (ix2 k q) := by
  show V c main_arg0 (((cfg0.win 1).blk t).view.emb (ix2 k q)) = V c main_arg0 (ix2 k q)
  refine congrArg (V c main_arg0) (funext fun a => Fin.ext ?_)
  obtain ⟨-, -, e0, e1, -⟩ := where0 t
  match a with
  | ⟨0, _⟩ => show win0_1.index t (0 : Fin 2) * 10000 + 1 * k.val = k.val; omega
  | ⟨1, _⟩ => show win0_1.index t (1 : Fin 2) * 128 + 1 * q.val = q.val; omega

/-- The weight block is the whole weight matrix. -/
theorem wts0_apply (c : Dev nD) (t : Fin cfg0.N) (q : Fin 128) (j : Fin 128) :
    blk0 V c 2 t (ix2 q j) = V c main_arg2 (ix2 q j) := by
  show V c main_arg2 (((cfg0.win 2).blk t).view.emb (ix2 q j)) = V c main_arg2 (ix2 q j)
  refine congrArg (V c main_arg2) (funext fun a => Fin.ext ?_)
  obtain ⟨-, -, -, -, e0, e1, -⟩ := where0 t
  match a with
  | ⟨0, _⟩ => show win0_2.index t (0 : Fin 2) * 128 + 1 * q.val = q.val; omega
  | ⟨1, _⟩ => show win0_2.index t (1 : Fin 2) * 128 + 1 * j.val = j.val; omega

/-- The bias block is the whole bias row. -/
theorem bias0_apply (c : Dev nD) (t : Fin cfg0.N) (j : Fin 128) :
    blk0 V c 3 t (ix2 (0 : Fin 1) j) = V c main_v0 (ix2 (0 : Fin 1) j) := by
  show V c main_v0 (((cfg0.win 3).blk t).view.emb (ix2 (0 : Fin 1) j)) = V c main_v0 (ix2 (0 : Fin 1) j)
  refine congrArg (V c main_v0) (funext fun a => Fin.ext ?_)
  obtain ⟨-, -, -, -, -, -, e0, e1, -⟩ := where0 t
  match a with
  | ⟨0, _⟩ => show win0_3.index t (0 : Fin 2) * 1 + 1 * 0 = 0; omega
  | ⟨1, _⟩ => show win0_3.index t (1 : Fin 2) * 128 + 1 * j.val = j.val; omega

/-- The layer of the arrays the region is entered with. -/
def result0 (c : Dev nD) : (⟨2, ![10000, 128]⟩ : Shape).Idx → EReal :=
  Cert.Gcn.layerArr (V c main_arg1) (V c main_arg0) (V c main_arg2) (fun j => V c main_v0 (ix2 (0 : Fin 1) j))

/-- What point `t` writes back is block `t` of that layer. -/
theorem written0 (c : Dev nD) (t : Fin cfg0.N) :
    (dat0 V c).flushed 4 t = ((cfg0.win 4).blk t).view.read (Elt Ideal) (result0 V c) := by
  show (cfg0.win 4).cut (grid0.coords t) ((dat0 V c).after 4 t) = _
  rw [after0_4]
  funext y
  obtain ⟨p, j, rfl⟩ : ∃ (p : Fin 400) (j : Fin 128), y = ix2 p j := ⟨y 0, y 1, eq_ix2 y⟩
  obtain ⟨-, -, -, -, -, -, -, -, e0, e1⟩ := where0 t
  have hN : t.val < 25 := lt_of_lt_of_eq t.isLt (show cfg0.N = 25 from N_0)
  have hr : (((cfg0.win 4).blk t).view.emb (ix2 p j) 0).val = t.val * 400 + p.val := by
    show win0_4.index t (0 : Fin 2) * 400 + 1 * p.val = _; omega
  have hc : (((cfg0.win 4).blk t).view.emb (ix2 p j) 1).val = j.val := by
    show win0_4.index t (1 : Fin 2) * 128 + 1 * j.val = _; omega
  show rows0 V c t (ix2 p j) = result0 V c (((cfg0.win 4).blk t).view.emb (ix2 p j))
  unfold result0 Cert.Gcn.layerArr Cert.Gcn.layer rows0
  rw [pay2_0_eq, rows_apply]
  have hcol : Cert.Gcn.col (((cfg0.win 4).blk t).view.emb (ix2 p j)) = j := Fin.ext hc
  rw [hcol]
  refine congrArg (fun y => Cert.Gcn.normRow y j) (funext fun j' => ?_)
  unfold Cert.Gcn.lin
  refine congr (congrArg HAdd.hAdd (Finset.sum_congr rfl fun k _ => ?_)) (bias0_apply V c t j')
  refine congr (congrArg HMul.hMul (stripe0_apply V c t p k _ hr)) ?_
  unfold scr0
  rw [pay1_0_apply]
  exact Finset.sum_congr rfl fun q _ => congr (congrArg HMul.hMul (feat0_apply V c pt0_0 k q)) (wts0_apply V c pt0_0 q j')

/-- An entry of the result array is in point `t`'s block iff its coordinates are in the block's ranges. -/
theorem in_block0 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v1).slice (win0_4.rect t)).set ↔ _
  rw [View.set_slice_whole, Rect.mem_set_unit]
  exact Iff.rfl

/-- Every entry of the result array is in some point's block: row `r` in point `r / 400`'s. -/
theorem tiled0 (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  obtain ⟨t, ht⟩ : ∃ t : Fin cfg0.N, t.val = (i 0).val / 400 :=
    ⟨⟨(i 0).val / 400, lt_of_lt_of_eq (by omega : (i 0).val / 400 < 25) (show 25 = cfg0.N from N_0.symm)⟩, rfl⟩
  obtain ⟨-, -, -, -, -, -, -, -, e0, e1⟩ := where0 t
  refine ⟨t, flush0_4 t, ?_⟩
  rw [in_block0]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- The result array after the region. -/
theorem final0 (c : Dev nD) : (dat0 V c).arrAt 4 cfg0.N = result0 V c :=
  (dat0 V c).arrAt_eq_of_cover 4 (result0 V c) (fun t _ => written0 V c t) tiled0

end Blocks0

end Cert.KernelIdeal.Hand

end
-- ==== Proof.KernelIdeal.Blocks1.lean ====
/-
  Layer 2's result array after its region: the 25 blocks of 400 rows written back, put together.

  Point `t` reads rows `400·t … 400·t + 399` of the adjacency matrix and the whole of the other three operands,
  and writes back rows `400·t … 400·t + 399` of the result; the 25 blocks tile the result array.  Row `400·t + p`
  of what point `t` writes is the layer's formula at that row of the arrays the region was entered with, so the
  array ends holding the layer of those arrays.
-/
import proofs.«160204_g83296595739027_cont_9to1c4b_134_2_alg».proof.Proof.KernelIdeal.Region1
import proofs.«160204_g83296595739027_cont_9to1c4b_134_2_alg».proof.Proof.KernelIdeal.Payload

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

section Blocks1

variable (V : (c : Dev nD) → (b : Ref sig .tc) → Buf (Elt Ideal) ((c : Thread nD τ).loc b))

/-- Where each window's block sits at point `t`, decided over the 25 points: the adjacency stripe and the result block at
    block row `t`, every other block at the array's origin. -/
theorem where1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adjacency stripe at point `t`, entry `(p, k)`: the matrix at row `400·t + p`. -/
theorem stripe1_apply (c : Dev nD) (t : Fin cfg1.N) (p : Fin 400) (k : Fin 10000) (r : Fin 10000) (hr : r.val = t.val * 400 + p.val) :
    blk1 V c 0 t (ix2 p k) = V c main_arg1 (ix2 r k) := by
  show V c main_arg1 (((cfg1.win 0).blk t).view.emb (ix2 p k)) = V c main_arg1 (ix2 r k)
  refine congrArg (V c main_arg1) (funext fun a => Fin.ext ?_)
  obtain ⟨e0, e1, -⟩ := where1 t
  match a with
  | ⟨0, _⟩ => show win1_0.index t (0 : Fin 2) * 400 + 1 * p.val = r.val; omega
  | ⟨1, _⟩ => show win1_0.index t (1 : Fin 2) * 10000 + 1 * k.val = k.val; omega

/-- The feature block is the whole feature matrix. -/
theorem feat1_apply (c : Dev nD) (t : Fin cfg1.N) (k : Fin 10000) (q : Fin 128) :
    blk1 V c 1 t (ix2 k q) = V c main_v1 (ix2 k q) := by
  show V c main_v1 (((cfg1.win 1).blk t).view.emb (ix2 k q)) = V c main_v1 (ix2 k q)
  refine congrArg (V c main_v1) (funext fun a => Fin.ext ?_)
  obtain ⟨-, -, e0, e1, -⟩ := where1 t
  match a with
  | ⟨0, _⟩ => show win1_1.index t (0 : Fin 2) * 10000 + 1 * k.val = k.val; omega
  | ⟨1, _⟩ => show win1_1.index t (1 : Fin 2) * 128 + 1 * q.val = q.val; omega

/-- The weight block is the whole weight matrix. -/
theorem wts1_apply (c : Dev nD) (t : Fin cfg1.N) (q : Fin 128) (j : Fin 128) :
    blk1 V c 2 t (ix2 q j) = V c main_arg4 (ix2 q j) := by
  show V c main_arg4 (((cfg1.win 2).blk t).view.emb (ix2 q j)) = V c main_arg4 (ix2 q j)
  refine congrArg (V c main_arg4) (funext fun a => Fin.ext ?_)
  obtain ⟨-, -, -, -, e0, e1, -⟩ := where1 t
  match a with
  | ⟨0, _⟩ => show win1_2.index t (0 : Fin 2) * 128 + 1 * q.val = q.val; omega
  | ⟨1, _⟩ => show win1_2.index t (1 : Fin 2) * 128 + 1 * j.val = j.val; omega

/-- The bias block is the whole bias row. -/
theorem bias1_apply (c : Dev nD) (t : Fin cfg1.N) (j : Fin 128) :
    blk1 V c 3 t (ix2 (0 : Fin 1) j) = V c main_v2 (ix2 (0 : Fin 1) j) := by
  show V c main_v2 (((cfg1.win 3).blk t).view.emb (ix2 (0 : Fin 1) j)) = V c main_v2 (ix2 (0 : Fin 1) j)
  refine congrArg (V c main_v2) (funext fun a => Fin.ext ?_)
  obtain ⟨-, -, -, -, -, -, e0, e1, -⟩ := where1 t
  match a with
  | ⟨0, _⟩ => show win1_3.index t (0 : Fin 2) * 1 + 1 * 0 = 0; omega
  | ⟨1, _⟩ => show win1_3.index t (1 : Fin 2) * 128 + 1 * j.val = j.val; omega

/-- The layer of the arrays the region is entered with. -/
def result1 (c : Dev nD) : (⟨2, ![10000, 128]⟩ : Shape).Idx → EReal :=
  Cert.Gcn.layerArr (V c main_arg1) (V c main_v1) (V c main_arg4) (fun j => V c main_v2 (ix2 (0 : Fin 1) j))

/-- What point `t` writes back is block `t` of that layer. -/
theorem written1 (c : Dev nD) (t : Fin cfg1.N) :
    (dat1 V c).flushed 4 t = ((cfg1.win 4).blk t).view.read (Elt Ideal) (result1 V c) := by
  show (cfg1.win 4).cut (grid1.coords t) ((dat1 V c).after 4 t) = _
  rw [after1_4]
  funext y
  obtain ⟨p, j, rfl⟩ : ∃ (p : Fin 400) (j : Fin 128), y = ix2 p j := ⟨y 0, y 1, eq_ix2 y⟩
  obtain ⟨-, -, -, -, -, -, -, -, e0, e1⟩ := where1 t
  have hN : t.val < 25 := lt_of_lt_of_eq t.isLt (show cfg1.N = 25 from N_1)
  have hr : (((cfg1.win 4).blk t).view.emb (ix2 p j) 0).val = t.val * 400 + p.val := by
    show win1_4.index t (0 : Fin 2) * 400 + 1 * p.val = _; omega
  have hc : (((cfg1.win 4).blk t).view.emb (ix2 p j) 1).val = j.val := by
    show win1_4.index t (1 : Fin 2) * 128 + 1 * j.val = _; omega
  show rows1 V c t (ix2 p j) = result1 V c (((cfg1.win 4).blk t).view.emb (ix2 p j))
  unfold result1 Cert.Gcn.layerArr Cert.Gcn.layer rows1
  rw [pay2_1_eq, rows_apply]
  have hcol : Cert.Gcn.col (((cfg1.win 4).blk t).view.emb (ix2 p j)) = j := Fin.ext hc
  rw [hcol]
  refine congrArg (fun y => Cert.Gcn.normRow y j) (funext fun j' => ?_)
  unfold Cert.Gcn.lin
  refine congr (congrArg HAdd.hAdd (Finset.sum_congr rfl fun k _ => ?_)) (bias1_apply V c t j')
  refine congr (congrArg HMul.hMul (stripe1_apply V c t p k _ hr)) ?_
  unfold scr1
  rw [pay1_1_apply]
  exact Finset.sum_congr rfl fun q _ => congr (congrArg HMul.hMul (feat1_apply V c pt0_1 k q)) (wts1_apply V c pt0_1 q j')

/-- An entry of the result array is in point `t`'s block iff its coordinates are in the block's ranges. -/
theorem in_block1 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v3).slice (win1_4.rect t)).set ↔ _
  rw [View.set_slice_whole, Rect.mem_set_unit]
  exact Iff.rfl

/-- Every entry of the result array is in some point's block: row `r` in point `r / 400`'s. -/
theorem tiled1 (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  obtain ⟨t, ht⟩ : ∃ t : Fin cfg1.N, t.val = (i 0).val / 400 :=
    ⟨⟨(i 0).val / 400, lt_of_lt_of_eq (by omega : (i 0).val / 400 < 25) (show 25 = cfg1.N from N_1.symm)⟩, rfl⟩
  obtain ⟨-, -, -, -, -, -, -, -, e0, e1⟩ := where1 t
  refine ⟨t, flush1_4 t, ?_⟩
  rw [in_block1]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 128 ≤ (i 1).val ∧ (i 1).val < win1_4.index t (1 : Fin 2) * 128 + 128; omega

/-- The result array after the region. -/
theorem final1 (c : Dev nD) : (dat1 V c).arrAt 4 cfg1.N = result1 V c :=
  (dat1 V c).arrAt_eq_of_cover 4 (result1 V c) (fun t _ => written1 V c t) tiled1

end Blocks1

end Cert.KernelIdeal.Hand

end
-- ==== Proof.RefStages.lean ====
/-
  The reference program's two layers, read at an entry.

  The reference computes each layer with whole-array operations: two matrix products, the bias broadcast under every
  row, the squares summed along each row from zero, the square root, the maximum with the constant, and the quotient.
  Read at row `r` and column `j` these are exactly the layer's formula: the sum from zero is the sum, and every
  broadcast reads its operand at the matching coordinate.  The second layer's features are the first layer's result.
-/
import proofs.«160204_g83296595739027_cont_9to1c4b_134_2_alg».proof.Proof.Gen.ReferenceIdeal.Read
import proofs.«160204_g83296595739027_cont_9to1c4b_134_2_alg».proof.Proof.GcnSpec
import Idealize.ShloMosaic.Lib.ValueIdx

noncomputable section

open scoped BigOperators

namespace Cert.ReferenceIdeal.Stages

open Idealize.ShloMosaic Idealize.ShloMosaic.ValueIdx
open Cert.ReferenceIdeal Cert.ReferenceIdeal.Read

/-- Layer 1's affine part in the reference, at `(r, j)`: the two products and the broadcast bias read at the index. -/
theorem lin1_ref (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (r : Fin 10000) (j : Fin 128) :
    val_main_v4 (F := Ideal) x0 x1 x2 x3 (ix2 r j) = Cert.Gcn.lin (fun r k => x1 (ix2 r k)) (fun k q => x0 (ix2 k q)) (fun q j => x2 (ix2 q j)) (fun j => x3 (ix1 j)) r j := by
  have l1 : ∀ k : Fin 10000, lidx_main_v1 (ix2 r j) k = ix2 r k := fun k => funext fun a => Fin.ext (by match a with | ⟨0, _⟩ => rfl | ⟨1, _⟩ => rfl)
  have r1 : ∀ k : Fin 10000, ridx_main_v1 (ix2 r j) k = ix2 k j := fun k => funext fun a => Fin.ext (by match a with | ⟨0, _⟩ => rfl | ⟨1, _⟩ => rfl)
  have l0 : ∀ (k : Fin 10000) (q : Fin 128), lidx_main_v0 (ix2 k j) q = ix2 k q := fun k q => funext fun a => Fin.ext (by match a with | ⟨0, _⟩ => rfl | ⟨1, _⟩ => rfl)
  have r0 : ∀ (k : Fin 10000) (q : Fin 128), ridx_main_v0 (ix2 k j) q = ix2 q j := fun k q => funext fun a => Fin.ext (by match a with | ⟨0, _⟩ => rfl | ⟨1, _⟩ => rfl)
  have hb : idx_main_v2 (idx_main_v3 (ix2 r j)) = ix1 j := funext fun a => Fin.ext (by match a with | ⟨0, _⟩ => rfl)
  rw [val_main_v4_apply, val_main_v1_apply, val_main_v3_apply, val_main_v2_apply, hb]
  simp only [l1, r1, val_main_v0_apply, l0, r0, Ideal.addf_def, Cert.Gcn.lin]

/-- Layer 1 in the reference, at `(r, j)`: the affine part's row over its floored norm. -/
theorem layer1_ref (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (r : Fin 10000) (j : Fin 128) :
    val_main_v9 (F := Ideal) x0 x1 x2 x3 (ix2 r j) = Cert.Gcn.layer (fun r k => x1 (ix2 r k)) (fun k q => x0 (ix2 k q)) (fun q j => x2 (ix2 q j)) (fun j => x3 (ix1 j)) r j := by
  have hi : ∀ k : Fin 128, idx_main_call0_v1 (idx_main_call0_v2 (idx_main_v8 (ix2 r j))) k = ix2 r k := fun k => funext fun a => Fin.ext (by match a with | ⟨0, _⟩ => rfl | ⟨1, _⟩ => rfl)
  rw [val_main_v9_apply, val_main_v8_apply, val_main_v7_apply, val_main_v5_apply, val_main_call0_v2_apply,
    val_main_call0_v1_apply, val_main_v6_apply, val_main_cst_apply, val_main_call0_cst_apply]
  simp only [val_main_call0_v0_apply, hi, lin1_ref, Ideal.hostDivf_def, Ideal.maximumf_def, Ideal.hostUnary_sqrt_def, Ideal.mulf_def,
    Ideal.ofBits_def, Ideal.ofBits_zero_f32, zero_add, Cert.Gcn.layer, Cert.Gcn.normRow, Cert.Gcn.floor]

/-- Layer 2's affine part in the reference, at `(r, j)`: the two products and the broadcast bias read at the index. -/
theorem lin2_ref (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (r : Fin 10000) (j : Fin 128) :
    val_main_v14 (F := Ideal) x0 x1 x2 x3 x4 x5 (ix2 r j) = Cert.Gcn.lin (fun r k => x1 (ix2 r k)) (fun k q => val_main_v9 (F := Ideal) x0 x1 x2 x3 (ix2 k q)) (fun q j => x4 (ix2 q j)) (fun j => x5 (ix1 j)) r j := by
  have l1 : ∀ k : Fin 10000, lidx_main_v11 (ix2 r j) k = ix2 r k := fun k => funext fun a => Fin.ext (by match a with | ⟨0, _⟩ => rfl | ⟨1, _⟩ => rfl)
  have r1 : ∀ k : Fin 10000, ridx_main_v11 (ix2 r j) k = ix2 k j := fun k => funext fun a => Fin.ext (by match a with | ⟨0, _⟩ => rfl | ⟨1, _⟩ => rfl)
  have l0 : ∀ (k : Fin 10000) (q : Fin 128), lidx_main_v10 (ix2 k j) q = ix2 k q := fun k q => funext fun a => Fin.ext (by match a with | ⟨0, _⟩ => rfl | ⟨1, _⟩ => rfl)
  have r0 : ∀ (k : Fin 10000) (q : Fin 128), ridx_main_v10 (ix2 k j) q = ix2 q j := fun k q => funext fun a => Fin.ext (by match a with | ⟨0, _⟩ => rfl | ⟨1, _⟩ => rfl)
  have hb : idx_main_v12 (idx_main_v13 (ix2 r j)) = ix1 j := funext fun a => Fin.ext (by match a with | ⟨0, _⟩ => rfl)
  rw [val_main_v14_apply, val_main_v11_apply, val_main_v13_apply, val_main_v12_apply, hb]
  simp only [l1, r1, val_main_v10_apply, l0, r0, Ideal.addf_def, Cert.Gcn.lin]

/-- Layer 2 in the reference, at `(r, j)`: the affine part's row over its floored norm. -/
theorem layer2_ref (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (r : Fin 10000) (j : Fin 128) :
    val_main_v19 (F := Ideal) x0 x1 x2 x3 x4 x5 (ix2 r j) = Cert.Gcn.layer (fun r k => x1 (ix2 r k)) (fun k q => val_main_v9 (F := Ideal) x0 x1 x2 x3 (ix2 k q)) (fun q j => x4 (ix2 q j)) (fun j => x5 (ix1 j)) r j := by
  have hi : ∀ k : Fin 128, idx_main_call1_v1 (idx_main_call1_v2 (idx_main_v18 (ix2 r j))) k = ix2 r k := fun k => funext fun a => Fin.ext (by match a with | ⟨0, _⟩ => rfl | ⟨1, _⟩ => rfl)
  rw [val_main_v19_apply, val_main_v18_apply, val_main_v17_apply, val_main_v15_apply, val_main_call1_v2_apply,
    val_main_call1_v1_apply, val_main_v16_apply, val_main_cst_0_apply, val_main_call1_cst_apply]
  simp only [val_main_call1_v0_apply, hi, lin2_ref, Ideal.hostDivf_def, Ideal.maximumf_def, Ideal.hostUnary_sqrt_def, Ideal.mulf_def,
    Ideal.ofBits_def, Ideal.ofBits_zero_f32, zero_add, Cert.Gcn.layer, Cert.Gcn.normRow, Cert.Gcn.floor]

end Cert.ReferenceIdeal.Stages

end
-- ==== Proof.Result.lean ====
/-
  The program's result as one formula of its arguments, on both sides.

  Layer 1 is entered with the arguments as launched and the first bias reshaped to a row, so its result array is the
  layer of the adjacency matrix, the features, the first weights and the first bias.  Layer 2 is entered with that array
  as its features, the second weights and the second bias reshaped to a row; the adjacency matrix is as launched since no
  item writes it.  So the kernel program's result is the layer of the layer.  The reference's result, read entry by
  entry, is the same formula of its own arguments.
-/
import proofs.«160204_g83296595739027_cont_9to1c4b_134_2_alg».proof.Proof.KernelIdeal.Frame
import proofs.«160204_g83296595739027_cont_9to1c4b_134_2_alg».proof.Proof.KernelIdeal.Blocks0
import proofs.«160204_g83296595739027_cont_9to1c4b_134_2_alg».proof.Proof.KernelIdeal.Blocks1
import proofs.«160204_g83296595739027_cont_9to1c4b_134_2_alg».proof.Proof.RefStages
import Idealize.ShloMosaic.Lib.StableHlo.Run
import Idealize.ShloMosaic.Lib.ValueLayout

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ)

/-! ## What layer 1 is entered with -/

/-- A buffer the first reshape does not write is as launched. -/
theorem ent0_arg (c : Dev nD) (r : Ref sig .tc) (h : r ∉ hostOps0_W) : ent0 m c r = m ((c : Thread nD τ).loc r) :=
  StableHlo.after_of_writes_sub hostOps0 _ hostOps0_writes h

/-- The first bias row, at column `j`: the first bias at `j`. -/
theorem ent0_bias (c : Dev nD) (j : Fin 128) : ent0 m c main_v0 (ix2 (0 : Fin 1) j) = (m ((c : Thread nD τ).loc main_arg3)) (ix1 j) := by
  have e : (ent0 m c main_v0 : S1x128.Idx → EReal) = shapeCast S1x128 (m ((c : Thread nD τ).loc main_arg3)) Facts₀.shapeCasts_S128_S1x128 := by
    show StableHlo.after hostOps0 (fun b => m (c, b)) (Proc.devRef .tc main_v0) = _
    after_results; rfl
  rw [e]
  exact shapeCast_a_1a_apply _ _ (0 : Fin 1) j

/-- Layer 1's result array: the layer of the launched arguments. -/
theorem layer1_arr (c : Dev nD) :
    result0 (ent0 m) c = Cert.Gcn.layerArr (m ((c : Thread nD τ).loc main_arg1)) (m ((c : Thread nD τ).loc main_arg0)) (m ((c : Thread nD τ).loc main_arg2)) (fun j => (m ((c : Thread nD τ).loc main_arg3)) (ix1 j)) := by
  unfold result0
  rw [ent0_arg m c main_arg1 (by decide), ent0_arg m c main_arg0 (by decide), ent0_arg m c main_arg2 (by decide)]
  exact congrArg _ (funext fun j => ent0_bias m c j)

/-! ## What layer 2 is entered with -/

/-- A buffer neither reshape writes and layer 1 at most reads: as launched. -/
theorem ent1_adj (c : Dev nD) : ent1 m c main_arg1 = (m ((c : Thread nD τ).loc main_arg1)) :=
  calc ent1 m c main_arg1
    _ = mem2 m c (Proc.devRef .tc main_arg1) := StableHlo.after_of_writes_sub hostOps1 _ hostOps1_writes (by decide : main_arg1 ∉ hostOps1_W)
    _ = mem1 m c (Proc.devRef .tc main_arg1) := mem2_in m c 0 rfl
    _ = (m ((c : Thread nD τ).loc main_arg1)) := ent0_arg m c main_arg1 (by decide)

theorem ent1_wts (c : Dev nD) : ent1 m c main_arg4 = (m ((c : Thread nD τ).loc main_arg4)) :=
  calc ent1 m c main_arg4
    _ = mem2 m c (Proc.devRef .tc main_arg4) := StableHlo.after_of_writes_sub hostOps1 _ hostOps1_writes (by decide : main_arg4 ∉ hostOps1_W)
    _ = mem1 m c (Proc.devRef .tc main_arg4) := mem2_of_ne m c main_arg4 (by decide)
    _ = (m ((c : Thread nD τ).loc main_arg4)) := ent0_arg m c main_arg4 (by decide)

/-- Its features are layer 1's result array. -/
theorem ent1_feat (c : Dev nD) : ent1 m c main_v1 = result0 (ent0 m) c :=
  calc ent1 m c main_v1
    _ = mem2 m c (Proc.devRef .tc main_v1) := StableHlo.after_of_writes_sub hostOps1 _ hostOps1_writes (by decide : main_v1 ∉ hostOps1_W)
    _ = (dat0 (ent0 m) c).arrAt 4 cfg0.N := mem2_arr m c 4
    _ = result0 (ent0 m) c := final0 (ent0 m) c

/-- The second bias row, at column `j`: the second bias at `j`. -/
theorem ent1_bias (c : Dev nD) (j : Fin 128) : ent1 m c main_v2 (ix2 (0 : Fin 1) j) = (m ((c : Thread nD τ).loc main_arg5)) (ix1 j) := by
  have e : (ent1 m c main_v2 : S1x128.Idx → EReal) = shapeCast S1x128 (mem2 m c (Proc.devRef .tc main_arg5)) Facts₀.shapeCasts_S128_S1x128 := by
    show StableHlo.after hostOps1 (mem2 m c) (Proc.devRef .tc main_v2) = _
    after_results; rfl
  rw [e]
  refine (shapeCast_a_1a_apply _ _ (0 : Fin 1) j).trans ?_
  refine congrFun ?_ (ix1 j)
  exact (mem2_of_ne m c main_arg5 (by decide)).trans (ent0_arg m c main_arg5 (by decide))

/-- The kernel program's result array: the layer of the layer of the launched arguments. -/
theorem kernel_result (c : Dev nD) :
    (dat1 (ent1 m) c).arrAt 4 cfg1.N
      = Cert.Gcn.layerArr (m ((c : Thread nD τ).loc main_arg1))
          (Cert.Gcn.layerArr (m ((c : Thread nD τ).loc main_arg1)) (m ((c : Thread nD τ).loc main_arg0)) (m ((c : Thread nD τ).loc main_arg2)) (fun j => (m ((c : Thread nD τ).loc main_arg3)) (ix1 j)))
          (m ((c : Thread nD τ).loc main_arg4)) (fun j => (m ((c : Thread nD τ).loc main_arg5)) (ix1 j)) := by
  rw [final1, result1, ent1_adj, ent1_wts, ent1_feat, layer1_arr]
  exact congrArg _ (funext fun j => ent1_bias m c j)

end Cert.KernelIdeal.Hand

namespace Cert.ReferenceIdeal.Stages

open Idealize.ShloMosaic Idealize.ShloMosaic.TcCoe Idealize.ShloMosaic.ValueIdx Idealize.SL.Sem

/-- The reference's result array: the same formula of its own arguments. -/
theorem reference_result (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v19 m' c
      = Cert.Gcn.layerArr (m' ((c.tc : Thread Cert.ReferenceIdeal.nD Cert.ReferenceIdeal.τ).loc Cert.ReferenceIdeal.main_arg1))
          (Cert.Gcn.layerArr (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (fun j => (m' ((c.tc : Thread Cert.ReferenceIdeal.nD Cert.ReferenceIdeal.τ).loc Cert.ReferenceIdeal.main_arg3)) (ix1 j)))
          (m' ((c.tc : Thread Cert.ReferenceIdeal.nD Cert.ReferenceIdeal.τ).loc Cert.ReferenceIdeal.main_arg4)) (fun j => (m' ((c.tc : Thread Cert.ReferenceIdeal.nD Cert.ReferenceIdeal.τ).loc Cert.ReferenceIdeal.main_arg5)) (ix1 j)) := by
  rw [Cert.ReferenceIdeal.Read.val_main_v19_eq]
  funext i
  obtain ⟨r, j, rfl⟩ : ∃ (r : Fin 10000) (j : Fin 128), i = ix2 r j := ⟨i 0, i 1, eq_ix2 i⟩
  rw [layer2_ref]
  show _ = Cert.Gcn.layer _ _ _ _ r j
  refine congrArg (fun H => Cert.Gcn.layer _ H _ _ r j) (funext fun k => funext fun q => ?_)
  exact layer1_ref _ _ _ _ k q

end Cert.ReferenceIdeal.Stages

end
-- ==== Proof.lean ====
/-
  A two-layer graph network with a dense adjacency matrix: a Pallas kernel program against its jnp reference.

  Each layer is `normalise(adj · (h · W) + b)`, where `normalise` divides every row by the larger of its Euclidean norm
  and the constant 1e-12.  The kernel program runs each layer as one region of 25 grid points: the first point multiplies
  the features by the weights into a scratch buffer that the later points reuse, and point `t` produces rows
  `400·t … 400·t + 399` from the matching stripe of the adjacency matrix.  The reference computes the same with
  whole-array operations.

  Frames.  For the kernel program, at the word level and on the extended reals alike, the run is followed item by item —
  reshape, region, reshape, region — with the contents of every unscoped buffer named between items; a region's body is
  run symbolically at the first point (scratch at anything → scratch at the product) and at a later point (scratch at the
  product, untouched), which gives the region's invariant.  No item writes an argument.  The reference's frame is its
  generated run with the result dropped.

  Values.  On the extended reals a matrix product into a zero accumulator, on the vector unit or on the host, is the plain
  sum over the contracted index; a lane sum and a host sum from zero are the row's sum; casts and broadcasts only re-lay.
  So the kernel's 25 blocks tile an array that is the layer's formula of the arrays the region was entered with, layer 2
  is entered with layer 1's array as its features, and the reference's result read entry by entry is the same formula.
  No algebraic law beyond `0 + x = x` is needed, so the finiteness of the inputs is never used.

  The ideal pass rewrote nothing, so `preserves` is trivial.
-/
import proofs.«160204_g83296595739027_cont_9to1c4b_134_2_alg».proof.Defs
import proofs.«160204_g83296595739027_cont_9to1c4b_134_2_alg».proof.Proof.Gen.Kernel
import proofs.«160204_g83296595739027_cont_9to1c4b_134_2_alg».proof.Proof.Gen.KernelIdeal
import proofs.«160204_g83296595739027_cont_9to1c4b_134_2_alg».proof.Proof.Gen.ReferenceIdeal
import proofs.«160204_g83296595739027_cont_9to1c4b_134_2_alg».proof.Proof.Gen.Pre_finite_inputs
import proofs.«160204_g83296595739027_cont_9to1c4b_134_2_alg».proof.Proof.Kernel.Frame
import proofs.«160204_g83296595739027_cont_9to1c4b_134_2_alg».proof.Proof.KernelIdeal.Frame
import proofs.«160204_g83296595739027_cont_9to1c4b_134_2_alg».proof.Proof.Result
import Idealize.ShloMosaic.Adequacy
import Idealize.ShloMosaic.Init

noncomputable section

namespace Cert.Proof

open Idealize.ShloMosaic Idealize.SL.Sem

/-- The word-level kernel program terminates, faults nowhere and leaves its arguments as launched. -/
theorem frame_kernel : Cert.frame_Kernel := fun m ρ _ => Cert.Kernel.Hand.frame m ρ

/-- So does the kernel program read on the extended reals. -/
theorem frame_kernelIdeal : Cert.frame_KernelIdeal := fun m ρ _ => Cert.KernelIdeal.Hand.frame m ρ

/-- And the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with the layer of the layer of their arguments, which agree. -/
theorem algebraic : Cert.algebraic_KernelIdeal_ReferenceIdeal := by
  intro m ρ m' ρ' _ hagree
  refine ⟨fun c => (Cert.KernelIdeal.Hand.dat1 (Cert.KernelIdeal.Hand.ent1 m) c).arrAt 4 Cert.KernelIdeal.cfg1.N,
    Cert.KernelIdeal.Hand.run_result m ρ, ?_⟩
  refine (θ_run Cert.ReferenceIdeal.defs _ _).mono (fun _ h c => ⟨(h c).1.trans
      ((Cert.ReferenceIdeal.Stages.reference_result m' c).trans (Eq.trans ?_ (Cert.KernelIdeal.Hand.kernel_result m c).symm)), (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
